-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S8x8192x512 : Shape := ⟨3, ![8, 8192, 512]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S8x8192x512 : S_.BroadcastsInDim S8x8192x512 (![] : Fin 0 → Fin S8x8192x512.rank)
  reducesTo_S8x8192x512_S_d0_1_2 : S8x8192x512.ReducesTo [0, 1, 2] S_

variable [Facts]

def fn_part1 {F : FTy → Type} [FloatOps F] (main_arg4 : FVec F S8192x512 .f32) (main_arg5 : FVec F S8192x512 .f32) (main_v13 : IVec S_ 1) (main_v16 : IVec S8x8192x512 1) : IVec S_ 1 :=
  let main_c_5 : IVec S_ 1 := constantI S_ 1 1#1
  let main_v17 : IVec S_ 1 := (fun x v => Host.reduce IntOp.andi x v reducesTo_S8x8192x512_S_d0_1_2 h_S_) main_v16 main_c_5
  let main_v18 : IVec S_ 1 := andi main_v13 main_v17
  let main_v19 : FVec F S8192x512 .f32 := Host.absf main_arg4
  let main_cst_6 : FVec F S_ .f32 := constant S_ .f32 0x7F800000#32
  let main_v20 : FVec F S8192x512 .f32 := broadcastInDim S8192x512 ![] bcast_S_S8192x512 main_cst_6
  let main_v21 : IVec S8192x512 1 := cmpf .olt main_v19 main_v20
  let main_c_7 : IVec S_ 1 := constantI S_ 1 1#1
  let main_v22 : IVec S_ 1 := (fun x v => Host.reduce IntOp.andi x v reducesTo_S8192x512_S_d0_1 h_S_) main_v21 main_c_7
  let main_v23 : IVec S_ 1 := andi main_v18 main_v22
  let main_v24 : FVec F S8192x512 .f32 := Host.absf main_arg5
  let main_cst_8 : FVec F S_ .f32 := constant S_ .f32 0x7F800000#32
  let main_v25 : FVec F S8192x512 .f32 := broadcastInDim S8192x512 ![] bcast_S_S8192x512 main_cst_8
  let main_v26 : IVec S8192x512 1 := cmpf .olt main_v24 main_v25
  let main_c_9 : IVec S_ 1 := constantI S_ 1 1#1
  let main_v27 : IVec S_ 1 := (fun x v => Host.reduce IntOp.andi x v reducesTo_S8192x512_S_d0_1 h_S_) main_v26 main_c_9
  let main_v28 : IVec S_ 1 := andi main_v23 main_v27
  main_v28

def fn {F : FTy → Type} [FloatOps F] (main_arg0 : FVec F S8192x512 .f32) (main_arg1 : FVec F S8x8192x512 .f32) (main_arg2 : FVec F S8x8192x512 .f32) (main_arg3 : FVec F S8x8192x512 .f32) (main_arg4 : FVec F S8192x512 .f32) (main_arg5 : FVec F S8192x512 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8x8192x512 .f32 := Host.absf main_arg1
  let main_cst_0 : FVec F S_ .f32 := constant S_ .f32 0x7F800000#32
  let main_v5 : FVec F S8x8192x512 .f32 := broadcastInDim S8x8192x512 ![] bcast_S_S8x8192x512 main_cst_0
  let main_v6 : IVec S8x8192x512 1 := cmpf .olt main_v4 main_v5
  let main_c_1 : IVec S_ 1 := constantI S_ 1 1#1
  let main_v7 : IVec S_ 1 := (fun x v => Host.reduce IntOp.andi x v reducesTo_S8x8192x512_S_d0_1_2 h_S_) main_v6 main_c_1
  let main_v8 : IVec S_ 1 := andi main_v3 main_v7
  let main_v9 : FVec F S8x8192x512 .f32 := Host.absf main_arg2
  let main_cst_2 : FVec F S_ .f32 := constant S_ .f32 0x7F800000#32
  let main_v10 : FVec F S8x8192x512 .f32 := broadcastInDim S8x8192x512 ![] bcast_S_S8x8192x512 main_cst_2
  let main_v11 : IVec S8x8192x512 1 := cmpf .olt main_v9 main_v10
  let main_c_3 : IVec S_ 1 := constantI S_ 1 1#1
  let main_v12 : IVec S_ 1 := (fun x v => Host.reduce IntOp.andi x v reducesTo_S8x8192x512_S_d0_1_2 h_S_) main_v11 main_c_3
  let main_v13 : IVec S_ 1 := andi main_v8 main_v12
  let main_v14 : FVec F S8x8192x512 .f32 := Host.absf main_arg3
  let main_cst_4 : FVec F S_ .f32 := constant S_ .f32 0x7F800000#32
  let main_v15 : FVec F S8x8192x512 .f32 := broadcastInDim S8x8192x512 ![] bcast_S_S8x8192x512 main_cst_4
  let main_v16 : IVec S8x8192x512 1 := cmpf .olt main_v14 main_v15
  fn_part1 (F := F) main_arg4 main_arg5 main_v13 main_v16
-- ==== Kernel.lean ====
abbrev S8192x512 : Shape := ⟨2, ![8192, 512]⟩
abbrev S8x8192x512 : Shape := ⟨3, ![8, 8192, 512]⟩
abbrev S16x128 : Shape := ⟨2, ![16, 128]⟩
abbrev S256x512 : Shape := ⟨2, ![256, 512]⟩
abbrev S8x256x512 : Shape := ⟨3, ![8, 256, 512]⟩
abbrev S8x128 : Shape := ⟨2, ![8, 128]⟩
abbrev S1x1 : Shape := ⟨2, ![1, 1]⟩
abbrev S1x256x512 : Shape := ⟨3, ![1, 256, 512]⟩
abbrev S256 : Shape := ⟨1, ![256]⟩
abbrev S256x1 : Shape := ⟨2, ![256, 1]⟩
abbrev S1 : Shape := ⟨1, ![1]⟩
abbrev S_ : Shape := ⟨0, ![]⟩

abbrev nBuf : Space → Nat
  | .hbm => 15
  | .vmem => 13
  | .smem => 0
  | _ => 0

abbrev bufTy : (tb : Table) → Fin (tcTables nBuf tb) → BufTy
  | .hbm, ⟨0, _⟩ => ⟨S8192x512, .f32⟩
  | .hbm, ⟨1, _⟩ => ⟨S8x8192x512, .f32⟩
  | .hbm, ⟨2, _⟩ => ⟨S8x8192x512, .f32⟩
  | .hbm, ⟨3, _⟩ => ⟨S8x8192x512, .f32⟩
  | .hbm, ⟨4, _⟩ => ⟨S8192x512, .f32⟩
  | .hbm, ⟨5, _⟩ => ⟨S8192x512, .f32⟩
  | .hbm, ⟨6, _⟩ => ⟨S16x128, .f32⟩
  | .hbm, ⟨7, _⟩ => ⟨S1x1, .f32⟩
  | .hbm, ⟨8, _⟩ => ⟨S_, .f32⟩
  | .hbm, ⟨9, _⟩ => ⟨S1x1, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S1, .f32⟩
  | .local _ .vmem, ⟨0, _⟩ => ⟨S256x512, .f32⟩
  | .local _ .vmem, ⟨1, _⟩ => ⟨S256x512, .f32⟩
  | .local _ .vmem, ⟨2, _⟩ => ⟨S8x256x512, .f32⟩
  | .local _ .vmem, ⟨3, _⟩ => ⟨S8x256x512, .f32⟩
  | .local _ .vmem, ⟨4, _⟩ => ⟨S8x256x512, .f32⟩
  | .local _ .vmem, ⟨5, _⟩ => ⟨S8x256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S8x128, .f32⟩
  | .local _ .vmem, ⟨11, _⟩ => ⟨S8x128, .f32⟩
  | .local _ .vmem, ⟨12, _⟩ => ⟨S1x1, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 16], ![false, false]⟩

def k0_cond2 (i : grid0.Coords) : BitVec 1 :=
  let arg1 : BitVec 32 := BitVec.ofNat 32 (i 1).val
  let c15_i32 : BitVec 32 := 15#32
  let v152 : BitVec 1 := Scalar.cmpi .eq arg1 c15_i32
  let v153 : BitVec 32 := Scalar.extui v152
  let c0_i32_75 : BitVec 32 := 0#32
  let v154 : BitVec 1 := Scalar.cmpi .ne v153 c0_i32_75
  v154

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S256x512_S256x512_0_0 : ∀ a, (![0, 0] : Fin 2 → Nat) a + S256x512.size a ≤ S256x512.size a
  h_S256x512 : 0 < S256x512.numel
  inb_S8x256x512_S1x256x512_0_0_0 : ∀ a, (![0, 0, 0] : Fin 3 → Nat) a + S1x256x512.size a ≤ S8x256x512.size a
  h_S1x256x512 : 0 < S1x256x512.numel
  shapeCasts_S1x256x512_S256x512 : S1x256x512.ShapeCasts S256x512
  inb_S8x256x512_S1x256x512_1_0_0 : ∀ a, (![1, 0, 0] : Fin 3 → Nat) a + S1x256x512.size a ≤ S8x256x512.size a
  inb_S8x256x512_S1x256x512_2_0_0 : ∀ a, (![2, 0, 0] : Fin 3 → Nat) a + S1x256x512.size a ≤ S8x256x512.size a
  inb_S8x256x512_S1x256x512_3_0_0 : ∀ a, (![3, 0, 0] : Fin 3 → Nat) a + S1x256x512.size a ≤ S8x256x512.size a
  inb_S8x256x512_S1x256x512_4_0_0 : ∀ a, (![4, 0, 0] : Fin 3 → Nat) a + S1x256x512.size a ≤ S8x256x512.size a
  inb_S8x256x512_S1x256x512_5_0_0 : ∀ a, (![5, 0, 0] : Fin 3 → Nat) a + S1x256x512.size a ≤ S8x256x512.size a
  inb_S8x256x512_S1x256x512_6_0_0 : ∀ a, (![6, 0, 0] : Fin 3 → Nat) a + S1x256x512.size a ≤ S8x256x512.size a
  inb_S8x256x512_S1x256x512_7_0_0 : ∀ a, (![7, 0, 0] : Fin 3 → Nat) a + S1x256x512.size a ≤ S8x256x512.size a
  reduces_S256x512_S256 : S256x512.Reduces [1] S256
  shapeCasts_S256_S256x1 : S256.ShapeCasts S256x1
  reduces_S256x1_S1 : S256x1.Reduces [0] S1
  shapeCasts_S1_S1x1 : S1.ShapeCasts S1x1
  broadcasts_S1x1_S8x128 : S1x1.Broadcasts S8x128
  inb_S8x128_S8x128_0_0 : ∀ a, (![0, 0] : Fin 2 → Nat) a + S8x128.size a ≤ S8x128.size a
  h_S8x128 : 0 < S8x128.numel
  slices_S16x128_S1x1_0_0 : S16x128.Slices ![0, 0] S1x1
  shapeCasts_S1x1_S_ : S1x1.ShapeCasts S_
  slices_S16x128_S1x1_8_0 : S16x128.Slices ![8, 0] S1x1
  shapeCasts_S_S1 : S_.ShapeCasts S1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x512.size a ≤ S8192x512.size a
  hwx0_0 : ∀ i : grid0.Coords, EltTy.bits .f32 = 32 ∨ (Rect.block (s := S8192x512) S256x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x256x512.size a ≤ S8x8192x512.size a
  hwx0_1 : ∀ i : grid0.Coords, EltTy.bits .f32 = 32 ∨ (Rect.block (s := S8x8192x512) S8x256x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x256x512.size a ≤ S8x8192x512.size a
  hwx0_2 : ∀ i : grid0.Coords, EltTy.bits .f32 = 32 ∨ (Rect.block (s := S8x8192x512) S8x256x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x512.size a ≤ S8192x512.size a
  hwx0_3 : ∀ i : grid0.Coords, EltTy.bits .f32 = 32 ∨ (Rect.block (s := S8192x512) S256x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x512.size a ≤ S8192x512.size a
  hwx0_4 : ∀ i : grid0.Coords, EltTy.bits .f32 = 32 ∨ (Rect.block (s := S8192x512) S256x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8x128.size a ≤ S16x128.size a
  hwx0_5 : ∀ i : grid0.Coords, EltTy.bits .f32 = 32 ∨ (Rect.block (s := S16x128) S8x128.size (cc0_transform_5 i) (hinb0_5 i)).WholeWords (EltTy.packing .f32)

variable [Facts₀]

abbrev win0_0 : Pipeline.Window sig grid0 :=
  Pipeline.Window.ofSpec (Memref.whole main_arg0) S256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x256x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S8x256x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S256x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S256x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0) S8x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S8192x512 : Shape := ⟨2, ![8192, 512]⟩
abbrev S8x8192x512 : Shape := ⟨3, ![8, 8192, 512]⟩
abbrev S_ : Shape := ⟨0, ![]⟩
abbrev S8192 : Shape := ⟨1, ![8192]⟩
abbrev S1 : Shape := ⟨1, ![1]⟩

abbrev nBuf : Space → Nat
  | .hbm => 116
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8x8192x512, .f32⟩
  | .hbm, ⟨2, _⟩ => ⟨S8x8192x512, .f32⟩
  | .hbm, ⟨3, _⟩ => ⟨S8x8192x512, .f32⟩
  | .hbm, ⟨4, _⟩ => ⟨S8192x512, .f32⟩
  | .hbm, ⟨5, _⟩ => ⟨S8192x512, .f32⟩
  | .hbm, ⟨6, _⟩ => ⟨S_, .f32⟩
  | .hbm, ⟨7, _⟩ => ⟨S8192x512, .f32⟩
  | .hbm, ⟨8, _⟩ => ⟨S_, .f32⟩
  | .hbm, ⟨9, _⟩ => ⟨S8192x512, .f32⟩
  | .hbm, ⟨10, _⟩ => ⟨S8192x512, .f32⟩
  | .hbm, ⟨11, _⟩ => ⟨S_, .f32⟩
  | .hbm, ⟨12, _⟩ => ⟨S8192x512, .f32⟩
  | .hbm, ⟨13, _⟩ => ⟨S_, .f32⟩
  | .hbm, ⟨14, _⟩ => ⟨S8192x512, .f32⟩
  | .hbm, ⟨15, _⟩ => ⟨S8192x512, .f32⟩
  | .hbm, ⟨16, _⟩ => ⟨S_, .f32⟩
  | .hbm, ⟨17, _⟩ => ⟨S8192x512, .f32⟩
  | .hbm, ⟨18, _⟩ => ⟨S_, .f32⟩
  | .hbm, ⟨19, _⟩ => ⟨S8192x512, .f32⟩
  | .hbm, ⟨20, _⟩ => ⟨S8192x512, .f32⟩
  | .hbm, ⟨21, _⟩ => ⟨S8192x512, .f32⟩
  | .hbm, ⟨22, _⟩ => ⟨S_, .f32⟩
  | .hbm, ⟨23, _⟩ => ⟨S8192, .f32⟩
  | .hbm, ⟨24, _⟩ => ⟨S8192x512, .f32⟩
  | .hbm, ⟨25, _⟩ => ⟨S_, .f32⟩
  | .hbm, ⟨26, _⟩ => ⟨S8192, .f32⟩
  | .hbm, ⟨27, _⟩ => ⟨S8192, .f32⟩
  | .hbm, ⟨28, _⟩ => ⟨S8192x512, .f32⟩
  | .hbm, ⟨29, _⟩ => ⟨S_, .f32⟩
  | .hbm, ⟨30, _⟩ => ⟨S8192, .f32⟩
  | .hbm, ⟨31, _⟩ => ⟨S8192, .f32⟩
  | .hbm, ⟨32, _⟩ => ⟨S8192, .f32⟩
  | .hbm, ⟨33, _⟩ => ⟨S_, .f32⟩
  | .hbm, ⟨34, _⟩ => ⟨S8192, .f32⟩
  | .hbm, ⟨35, _⟩ => ⟨S8192, .f32⟩
  | .hbm, ⟨36, _⟩ => ⟨S8192, .f32⟩
  | .hbm, ⟨37, _⟩ => ⟨S_, .f32⟩
  | .hbm, ⟨38, _⟩ => ⟨S8192, .f32⟩
  | .hbm, ⟨39, _⟩ => ⟨S8192, .f32⟩
  | .hbm, ⟨40, _⟩ => ⟨S8192, .f32⟩
  | .hbm, ⟨41, _⟩ => ⟨S8192x512, .f32⟩
  | .hbm, ⟨42, _⟩ => ⟨S_, .f32⟩
  | .hbm, ⟨43, _⟩ => ⟨S8192, .f32⟩
  | .hbm, ⟨44, _⟩ => ⟨S8192x512, .f32⟩
  | .hbm, ⟨45, _⟩ => ⟨S_, .f32⟩
  | .hbm, ⟨46, _⟩ => ⟨S8192, .f32⟩
  | .hbm, ⟨47, _⟩ => ⟨S8192, .f32⟩
  | .hbm, ⟨48, _⟩ => ⟨S8192x512, .f32⟩
  | .hbm, ⟨49, _⟩ => ⟨S_, .f32⟩
  | .hbm, ⟨50, _⟩ => ⟨S8192, .f32⟩
  | .hbm, ⟨51, _⟩ => ⟨S8192, .f32⟩
  | .hbm, ⟨52, _⟩ => ⟨S8192, .f32⟩
  | .hbm, ⟨53, _⟩ => ⟨S_, .f32⟩
  | .hbm, ⟨54, _⟩ => ⟨S8192, .f32⟩
  | .hbm, ⟨55, _⟩ => ⟨S8192, .f32⟩
  | .hbm, ⟨56, _⟩ => ⟨S8192, .f32⟩
  | .hbm, ⟨57, _⟩ => ⟨S_, .f32⟩
  | .hbm, ⟨58, _⟩ => ⟨S8192, .f32⟩
  | .hbm, ⟨59, _⟩ => ⟨S8192, .f32⟩
  | .hbm, ⟨60, _⟩ => ⟨S8192, .f32⟩
  | .hbm, ⟨61, _⟩ => ⟨S8192x512, .f32⟩
  | .hbm, ⟨62, _⟩ => ⟨S_, .f32⟩
  | .hbm, ⟨63, _⟩ => ⟨S8192, .f32⟩
  | .hbm, ⟨64, _⟩ => ⟨S8192x512, .f32⟩
  | .hbm, ⟨65, _⟩ => ⟨S_, .f32⟩
  | .hbm, ⟨66, _⟩ => ⟨S8192, .f32⟩
  | .hbm, ⟨67, _⟩ => ⟨S8192, .f32⟩
  | .hbm, ⟨68, _⟩ => ⟨S8192x512, .f32⟩
  | .hbm, ⟨69, _⟩ => ⟨S_, .f32⟩
  | .hbm, ⟨70, _⟩ => ⟨S8192, .f32⟩
  | .hbm, ⟨71, _⟩ => ⟨S8192, .f32⟩
  | .hbm, ⟨72, _⟩ => ⟨S8192, .f32⟩
  | .hbm, ⟨73, _⟩ => ⟨S_, .f32⟩
  | .hbm, ⟨74, _⟩ => ⟨S8192, .f32⟩
  | .hbm, ⟨75, _⟩ => ⟨S8192, .f32⟩
  | .hbm, ⟨76, _⟩ => ⟨S8192, .f32⟩
  | .hbm, ⟨77, _⟩ => ⟨S_, .f32⟩
  | .hbm, ⟨78, _⟩ => ⟨S8192, .f32⟩
  | .hbm, ⟨79, _⟩ => ⟨S8192, .f32⟩
  | .hbm, ⟨80, _⟩ => ⟨S8192, .f32⟩
  | .hbm, ⟨81, _⟩ => ⟨S8192x512, .f32⟩
  | .hbm, ⟨82, _⟩ => ⟨S_, .f32⟩
  | .hbm, ⟨83, _⟩ => ⟨S8192, .f32⟩
  | .hbm, ⟨84, _⟩ => ⟨S8192x512, .f32⟩
  | .hbm, ⟨85, _⟩ => ⟨S_, .f32⟩
  | .hbm, ⟨86, _⟩ => ⟨S8192, .f32⟩
  | .hbm, ⟨87, _⟩ => ⟨S8192, .f32⟩
  | .hbm, ⟨88, _⟩ => ⟨S8192x512, .f32⟩
  | .hbm, ⟨89, _⟩ => ⟨S_, .f32⟩
  | .hbm, ⟨90, _⟩ => ⟨S8192, .f32⟩
  | .hbm, ⟨91, _⟩ => ⟨S8192, .f32⟩
  | .hbm, ⟨92, _⟩ => ⟨S8192, .f32⟩
  | .hbm, ⟨93, _⟩ => ⟨S_, .f32⟩
  | .hbm, ⟨94, _⟩ => ⟨S8192, .f32⟩
  | .hbm, ⟨95, _⟩ => ⟨S8192, .f32⟩
  | .hbm, ⟨96, _⟩ => ⟨S8192, .f32⟩
  | .hbm, ⟨97, _⟩ => ⟨S_, .f32⟩
  | .hbm, ⟨98, _⟩ => ⟨S8192, .f32⟩
  | .hbm, ⟨99, _⟩ => ⟨S8192, .f32⟩
  | .hbm, ⟨100, _⟩ => ⟨S8192, .f32⟩
  | .hbm, ⟨101, _⟩ => ⟨S8192, .f32⟩
  | .hbm, ⟨102, _⟩ => ⟨S8192, .f32⟩
  | .hbm, ⟨103, _⟩ => ⟨S8192, .f32⟩
  | .hbm, ⟨104, _⟩ => ⟨S8192, .f32⟩
  | .hbm, ⟨105, _⟩ => ⟨S_, .f32⟩
  | .hbm, ⟨106, _⟩ => ⟨S8192, .f32⟩
  | .hbm, ⟨107, _⟩ => ⟨S8192, .f32⟩
  | .hbm, ⟨108, _⟩ => ⟨S8192, .f32⟩
  | .hbm, ⟨109, _⟩ => ⟨S8192, .f32⟩
  | .hbm, ⟨110, _⟩ => ⟨S_, .f32⟩
  | .hbm, ⟨111, _⟩ => ⟨S_, .f32⟩
  | .hbm, ⟨112, _⟩ => ⟨S1, .f32⟩
  | .hbm, ⟨113, _⟩ => ⟨S_, .f32⟩
  | .hbm, ⟨114, _⟩ => ⟨S1, .f32⟩
  | .hbm, ⟨115, _⟩ => ⟨S1, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_cst_1 : Ref sig .tc := ⟨.hbm, 11, rfl⟩
abbrev main_v3 : Ref sig .tc := ⟨.hbm, 12, rfl⟩
abbrev main_cst_2 : Ref sig .tc := ⟨.hbm, 13, rfl⟩
abbrev main_v4 : Ref sig .tc := ⟨.hbm, 14, rfl⟩
abbrev main_v5 : Ref sig .tc := ⟨.hbm, 15, rfl⟩
abbrev main_cst_3 : Ref sig .tc := ⟨.hbm, 16, rfl⟩
abbrev main_v6 : Ref sig .tc := ⟨.hbm, 17, rfl⟩
abbrev main_cst_4 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_5 : Ref sig .tc := ⟨.hbm, 22, rfl⟩
abbrev main_v10 : Ref sig .tc := ⟨.hbm, 23, rfl⟩
abbrev main_call0_v0 : Ref sig .tc := ⟨.hbm, 24, rfl⟩
abbrev main_call0_cst : Ref sig .tc := ⟨.hbm, 25, rfl⟩
abbrev main_call0_v1 : Ref sig .tc := ⟨.hbm, 26, rfl⟩
abbrev main_v11 : Ref sig .tc := ⟨.hbm, 27, rfl⟩
abbrev main_call1_v0 : Ref sig .tc := ⟨.hbm, 28, rfl⟩
abbrev main_call1_cst : Ref sig .tc := ⟨.hbm, 29, rfl⟩
abbrev main_call1_v1 : Ref sig .tc := ⟨.hbm, 30, rfl⟩
abbrev main_v12 : Ref sig .tc := ⟨.hbm, 31, rfl⟩
abbrev main_v13 : Ref sig .tc := ⟨.hbm, 32, rfl⟩
abbrev main_cst_6 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_cst_7 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_cst_8 : Ref sig .tc := ⟨.hbm, 42, rfl⟩
abbrev main_v21 : Ref sig .tc := ⟨.hbm, 43, rfl⟩
abbrev main_call2_v0 : Ref sig .tc := ⟨.hbm, 44, rfl⟩
abbrev main_call2_cst : Ref sig .tc := ⟨.hbm, 45, rfl⟩
abbrev main_call2_v1 : Ref sig .tc := ⟨.hbm, 46, rfl⟩
abbrev main_v22 : Ref sig .tc := ⟨.hbm, 47, rfl⟩
abbrev main_call3_v0 : Ref sig .tc := ⟨.hbm, 48, rfl⟩
abbrev main_call3_cst : Ref sig .tc := ⟨.hbm, 49, rfl⟩
abbrev main_call3_v1 : Ref sig .tc := ⟨.hbm, 50, rfl⟩
abbrev main_v23 : Ref sig .tc := ⟨.hbm, 51, rfl⟩
abbrev main_v24 : Ref sig .tc := ⟨.hbm, 52, rfl⟩
abbrev main_cst_9 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_cst_10 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_cst_11 : Ref sig .tc := ⟨.hbm, 62, rfl⟩
abbrev main_v32 : Ref sig .tc := ⟨.hbm, 63, rfl⟩
abbrev main_call4_v0 : Ref sig .tc := ⟨.hbm, 64, rfl⟩
abbrev main_call4_cst : Ref sig .tc := ⟨.hbm, 65, rfl⟩
abbrev main_call4_v1 : Ref sig .tc := ⟨.hbm, 66, rfl⟩
abbrev main_v33 : Ref sig .tc := ⟨.hbm, 67, rfl⟩
abbrev main_call5_v0 : Ref sig .tc := ⟨.hbm, 68, rfl⟩
abbrev main_call5_cst : Ref sig .tc := ⟨.hbm, 69, rfl⟩
abbrev main_call5_v1 : Ref sig .tc := ⟨.hbm, 70, rfl⟩
abbrev main_v34 : Ref sig .tc := ⟨.hbm, 71, rfl⟩
abbrev main_v35 : Ref sig .tc := ⟨.hbm, 72, rfl⟩
abbrev main_cst_12 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_cst_13 : Ref sig .tc := ⟨.hbm, 77, rfl⟩
abbrev main_v39 : Ref sig .tc := ⟨.hbm, 78, rfl⟩
abbrev main_v40 : Ref sig .tc := ⟨.hbm, 79, rfl⟩
abbrev main_v41 : Ref sig .tc := ⟨.hbm, 80, rfl⟩
abbrev main_v42 : Ref sig .tc := ⟨.hbm, 81, rfl⟩
abbrev main_cst_14 : Ref sig .tc := ⟨.hbm, 82, rfl⟩
abbrev main_v43 : Ref sig .tc := ⟨.hbm, 83, rfl⟩
abbrev main_call6_v0 : Ref sig .tc := ⟨.hbm, 84, rfl⟩
abbrev main_call6_cst : Ref sig .tc := ⟨.hbm, 85, rfl⟩
abbrev main_call6_v1 : Ref sig .tc := ⟨.hbm, 86, rfl⟩
abbrev main_v44 : Ref sig .tc := ⟨.hbm, 87, rfl⟩
abbrev main_call7_v0 : Ref sig .tc := ⟨.hbm, 88, rfl⟩
abbrev main_call7_cst : Ref sig .tc := ⟨.hbm, 89, rfl⟩
abbrev main_call7_v1 : Ref sig .tc := ⟨.hbm, 90, rfl⟩
abbrev main_v45 : Ref sig .tc := ⟨.hbm, 91, rfl⟩
abbrev main_v46 : Ref sig .tc := ⟨.hbm, 92, rfl⟩
abbrev main_cst_15 : Ref sig .tc := ⟨.hbm, 93, rfl⟩
abbrev main_v47 : Ref sig .tc := ⟨.hbm, 94, rfl⟩
abbrev main_v48 : Ref sig .tc := ⟨.hbm, 95, rfl⟩
abbrev main_v49 : Ref sig .tc := ⟨.hbm, 96, rfl⟩
abbrev main_cst_16 : Ref sig .tc := ⟨.hbm, 97, rfl⟩
abbrev main_v50 : Ref sig .tc := ⟨.hbm, 98, rfl⟩
abbrev main_v51 : Ref sig .tc := ⟨.hbm, 99, rfl⟩
abbrev main_v52 : Ref sig .tc := ⟨.hbm, 100, rfl⟩
abbrev main_v53 : Ref sig .tc := ⟨.hbm, 101, rfl⟩
abbrev main_v54 : Ref sig .tc := ⟨.hbm, 102, rfl⟩
abbrev main_v55 : Ref sig .tc := ⟨.hbm, 103, rfl⟩
abbrev main_v56 : Ref sig .tc := ⟨.hbm, 104, rfl⟩
abbrev main_cst_17 : Ref sig .tc := ⟨.hbm, 105, rfl⟩
abbrev main_v57 : Ref sig .tc := ⟨.hbm, 106, rfl⟩
abbrev main_v58 : Ref sig .tc := ⟨.hbm, 107, rfl⟩
abbrev main_v59 : Ref sig .tc := ⟨.hbm, 108, rfl⟩
abbrev main_v60 : Ref sig .tc := ⟨.hbm, 109, rfl⟩
abbrev main_cst_18 : Ref sig .tc := ⟨.hbm, 110, rfl⟩
abbrev main_v61 : Ref sig .tc := ⟨.hbm, 111, rfl⟩
abbrev main_v62 : Ref sig .tc := ⟨.hbm, 112, rfl⟩
abbrev main_cst_19 : Ref sig .tc := ⟨.hbm, 113, rfl⟩
abbrev main_v63 : Ref sig .tc := ⟨.hbm, 114, rfl⟩
abbrev main_v64 : Ref sig .tc := ⟨.hbm, 115, rfl⟩

abbrev nD : Nat := 1
abbrev τ : Topo := Topo.v7x

variable {F : FTy → Type} [FloatOps F]

class Facts₀ : Prop where
  reducesTo_S8x8192x512_S8192x512_d0 : S8x8192x512.ReducesTo [0] S8192x512
  h_S_ : 0 < S_.numel
  bcast_S_S8192x512 : S_.BroadcastsInDim S8192x512 (![] : Fin 0 → Fin S8192x512.rank)
  reducesTo_S8192x512_S8192_d1 : S8192x512.ReducesTo [1] S8192
  bcast_S_S8192 : S_.BroadcastsInDim S8192 (![] : Fin 0 → Fin S8192.rank)
  reducesTo_S8192_S_d0 : S8192.ReducesTo [0] S_
  bcast_S_S1 : S_.BroadcastsInDim S1 (![] : Fin 0 → Fin S1.rank)

variable [Facts₀]

class Facts : Prop extends Facts₀ where

variable [Facts]
-- ==== Proof.Pieces.lean ====
/-
  What one grid point leaves behind, as values.

  The body of the kernel, at every grid point, replaces the one-entry scratch by `step` of the five input blocks
  and the scratch's previous contents: the previous contents plus the sum, over the block's 256 rows, of the
  row losses (the arithmetic is read at an index in the next module). At the first point of a core's sixteen the
  previous contents is the zero the body has just stored; at the last point the output block is the new scratch
  entry broadcast to every position of the 8 × 128 block. The four lemmas below read those facts off the pieces
  the frame's three case runs found, one case at a time, for any float instance.
-/
import proofs.«166223_j83141976916016_2_alg».proof.Proof.Gen.KernelIdeal.Frame
import Idealize.ShloMosaic.Lib.Pipeline.Value
import Idealize.ShloMosaic.Lib.Tactic

set_option maxRecDepth 16384
noncomputable section

open Idealize.ShloMosaic Idealize.ShloMosaic.TcCoe Idealize.SL.Sem

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl

/-- The scratch after a point, from the five input blocks and the scratch before it: the body's arithmetic, with the
    eight slices of each stacked block read through their rectangles. -/
def step (x0 : Vec F S256x512 .f32) (x1 : Vec F S8x256x512 .f32) (x2 : Vec F S8x256x512 .f32) (x3 : Vec F S256x512 .f32) (x4 : Vec F S256x512 .f32) (xs : Vec F S1x1 .f32) : Vec F S1x1 .f32 :=
  k0_pay1 (k0_pay11 x0 x3 x4 (k0_pay7 x0)
    (k0_pay8 x0 (k0_pay5 (k0_pay4 (View.ld x1 (Rect.unit ![0, 0, 0] S1x256x512.size inb_S8x256x512_S1x256x512_0_0_0))
      (View.ld x1 (Rect.unit ![1, 0, 0] S1x256x512.size inb_S8x256x512_S1x256x512_1_0_0))
      (View.ld x1 (Rect.unit ![2, 0, 0] S1x256x512.size inb_S8x256x512_S1x256x512_2_0_0))
      (View.ld x1 (Rect.unit ![3, 0, 0] S1x256x512.size inb_S8x256x512_S1x256x512_3_0_0))
      (View.ld x1 (Rect.unit ![4, 0, 0] S1x256x512.size inb_S8x256x512_S1x256x512_4_0_0))
      (View.ld x1 (Rect.unit ![5, 0, 0] S1x256x512.size inb_S8x256x512_S1x256x512_5_0_0)))
      (View.ld x1 (Rect.unit ![6, 0, 0] S1x256x512.size inb_S8x256x512_S1x256x512_6_0_0))
      (View.ld x1 (Rect.unit ![7, 0, 0] S1x256x512.size inb_S8x256x512_S1x256x512_7_0_0))))
    (k0_pay9 x0 (k0_pay6 (View.ld x2 (Rect.unit ![0, 0, 0] S1x256x512.size inb_S8x256x512_S1x256x512_0_0_0))
      (View.ld x2 (Rect.unit ![1, 0, 0] S1x256x512.size inb_S8x256x512_S1x256x512_1_0_0))
      (View.ld x2 (Rect.unit ![2, 0, 0] S1x256x512.size inb_S8x256x512_S1x256x512_2_0_0))
      (View.ld x2 (Rect.unit ![3, 0, 0] S1x256x512.size inb_S8x256x512_S1x256x512_3_0_0))
      (View.ld x2 (Rect.unit ![4, 0, 0] S1x256x512.size inb_S8x256x512_S1x256x512_4_0_0))
      (View.ld x2 (Rect.unit ![5, 0, 0] S1x256x512.size inb_S8x256x512_S1x256x512_5_0_0)))
      (View.ld x2 (Rect.unit ![6, 0, 0] S1x256x512.size inb_S8x256x512_S1x256x512_6_0_0))
      (View.ld x2 (Rect.unit ![7, 0, 0] S1x256x512.size inb_S8x256x512_S1x256x512_7_0_0)))
    k0_pay10 xs)

/-- A middle point (neither first nor last of its core's sixteen) leaves `step` of the blocks and the carried scratch. -/
theorem scratch_B (c : Dev nD) (i : grid0.Coords) (arg2 : Memref sig .tc .vmem S256x512 .f32) (harg2 : arg2.IsWhole) (arg3 : Memref sig .tc .vmem S8x256x512 .f32) (harg3 : arg3.IsWhole) (arg4 : Memref sig .tc .vmem S8x256x512 .f32) (harg4 : arg4.IsWhole) (arg5 : Memref sig .tc .vmem S256x512 .f32) (harg5 : arg5.IsWhole) (arg6 : Memref sig .tc .vmem S256x512 .f32) (harg6 : arg6.IsWhole) (arg7 : Memref sig .tc .vmem S8x128 .f32) (harg7 : arg7.IsWhole) (arg8 : Memref sig .tc .vmem S1x1 .f32) (harg8 : arg8.IsWhole) (hc0 : ¬cond0_0 i) (hc1 : ¬cond0_1 i) (x0 : Vec F S256x512 .f32) (x1 : Vec F S8x256x512 .f32) (x2 : Vec F S8x256x512 .f32) (x3 : Vec F S256x512 .f32) (x4 : Vec F S256x512 .f32) (xs : Vec F S1x1 .f32) :
    sout0_B_0 c i arg2 harg2 arg3 harg3 arg4 harg4 arg5 harg5 arg6 harg6 arg7 harg7 arg8 harg8 hc0 hc1 x0 x1 x2 x3 x4 xs = step x0 x1 x2 x3 x4 xs := by
  unfold sout0_B_0
  rw [View.read_writes_eq_canon _ _ _ (scover0_B_0 c i arg2 harg2 arg3 harg3 arg4 harg4 arg5 harg5 arg6 harg6 arg7 harg7 arg8 harg8 hc0 hc1 x0 x1 x2 x3 x4 xs)]
  unfold kernelRun0_B
  dsimp only
  sl_unfold_words
  rw [View.canon_unit_zero hz2]
  simp only [View.readAt_eq_ld, harg2.read_unread, harg3.read_unread, harg4.read_unread, harg5.read_unread, harg6.read_unread, harg7.read_unread, harg8.read_unread, View.ld_unit_zero (S := S256x512) hz2, View.ld_unit_zero (S := S1x1) hz2]
  rfl

/-- A last point leaves the same in the scratch, -/
theorem scratch_C (c : Dev nD) (i : grid0.Coords) (arg2 : Memref sig .tc .vmem S256x512 .f32) (harg2 : arg2.IsWhole) (arg3 : Memref sig .tc .vmem S8x256x512 .f32) (harg3 : arg3.IsWhole) (arg4 : Memref sig .tc .vmem S8x256x512 .f32) (harg4 : arg4.IsWhole) (arg5 : Memref sig .tc .vmem S256x512 .f32) (harg5 : arg5.IsWhole) (arg6 : Memref sig .tc .vmem S256x512 .f32) (harg6 : arg6.IsWhole) (arg7 : Memref sig .tc .vmem S8x128 .f32) (harg7 : arg7.IsWhole) (arg8 : Memref sig .tc .vmem S1x1 .f32) (harg8 : arg8.IsWhole) (hc0 : ¬cond0_0 i) (hc1 : cond0_1 i) (x0 : Vec F S256x512 .f32) (x1 : Vec F S8x256x512 .f32) (x2 : Vec F S8x256x512 .f32) (x3 : Vec F S256x512 .f32) (x4 : Vec F S256x512 .f32) (xs : Vec F S1x1 .f32) :
    sout0_C_0 c i arg2 harg2 arg3 harg3 arg4 harg4 arg5 harg5 arg6 harg6 arg7 harg7 arg8 harg8 hc0 hc1 x0 x1 x2 x3 x4 xs = step x0 x1 x2 x3 x4 xs := by
  unfold sout0_C_0
  rw [View.read_writes_eq_canon _ _ _ (scover0_C_0 c i arg2 harg2 arg3 harg3 arg4 harg4 arg5 harg5 arg6 harg6 arg7 harg7 arg8 harg8 hc0 hc1 x0 x1 x2 x3 x4 xs)]
  unfold kernelRun0_C
  dsimp only
  sl_unfold_words
  rw [View.canon_unit_zero hz2]
  simp only [View.readAt_eq_ld, harg2.read_unread, harg3.read_unread, harg4.read_unread, harg5.read_unread, harg6.read_unread, harg7.read_unread, harg8.read_unread, View.ld_unit_zero (S := S256x512) hz2, View.ld_unit_zero (S := S1x1) hz2]
  rfl

/-- and stores its broadcast (the payload `k0_pay2`) over the whole output block. -/
theorem out_C (c : Dev nD) (i : grid0.Coords) (arg2 : Memref sig .tc .vmem S256x512 .f32) (harg2 : arg2.IsWhole) (arg3 : Memref sig .tc .vmem S8x256x512 .f32) (harg3 : arg3.IsWhole) (arg4 : Memref sig .tc .vmem S8x256x512 .f32) (harg4 : arg4.IsWhole) (arg5 : Memref sig .tc .vmem S256x512 .f32) (harg5 : arg5.IsWhole) (arg6 : Memref sig .tc .vmem S256x512 .f32) (harg6 : arg6.IsWhole) (arg7 : Memref sig .tc .vmem S8x128 .f32) (harg7 : arg7.IsWhole) (arg8 : Memref sig .tc .vmem S1x1 .f32) (harg8 : arg8.IsWhole) (hc0 : ¬cond0_0 i) (hc1 : cond0_1 i) (x0 : Vec F S256x512 .f32) (x1 : Vec F S8x256x512 .f32) (x2 : Vec F S8x256x512 .f32) (x3 : Vec F S256x512 .f32) (x4 : Vec F S256x512 .f32) (xs : Vec F S1x1 .f32) :
    out0_C_5 c i arg2 harg2 arg3 harg3 arg4 harg4 arg5 harg5 arg6 harg6 arg7 harg7 arg8 harg8 hc0 hc1 x0 x1 x2 x3 x4 xs = k0_pay2 (step x0 x1 x2 x3 x4 xs) := by
  unfold out0_C_5
  rw [View.read_writes_eq_canon _ _ _ (cover0_C_5 c i arg2 harg2 arg3 harg3 arg4 harg4 arg5 harg5 arg6 harg6 arg7 harg7 arg8 harg8 hc0 hc1 x0 x1 x2 x3 x4 xs)]
  unfold kernelRun0_C
  dsimp only
  sl_unfold_words
  rw [View.canon_unit_zero (S := S8x128) hz2, View.readCov_unit_zero (S := S1x1) _ hz2]
  simp only [View.readAt_eq_ld, harg2.read_unread, harg3.read_unread, harg4.read_unread, harg5.read_unread, harg6.read_unread, harg7.read_unread, harg8.read_unread, View.ld_unit_zero (S := S256x512) hz2, View.ld_unit_zero (S := S1x1) hz2]
  rfl

/-- A first point stores the zero entry (the payload `k0_pay3`), reads it back, and leaves `step` of it. -/
theorem scratch_A (c : Dev nD) (i : grid0.Coords) (arg2 : Memref sig .tc .vmem S256x512 .f32) (harg2 : arg2.IsWhole) (arg3 : Memref sig .tc .vmem S8x256x512 .f32) (harg3 : arg3.IsWhole) (arg4 : Memref sig .tc .vmem S8x256x512 .f32) (harg4 : arg4.IsWhole) (arg5 : Memref sig .tc .vmem S256x512 .f32) (harg5 : arg5.IsWhole) (arg6 : Memref sig .tc .vmem S256x512 .f32) (harg6 : arg6.IsWhole) (arg7 : Memref sig .tc .vmem S8x128 .f32) (harg7 : arg7.IsWhole) (arg8 : Memref sig .tc .vmem S1x1 .f32) (harg8 : arg8.IsWhole) (hc0 : cond0_0 i) (hc1 : ¬cond0_1 i) (x0 : Vec F S256x512 .f32) (x1 : Vec F S8x256x512 .f32) (x2 : Vec F S8x256x512 .f32) (x3 : Vec F S256x512 .f32) (x4 : Vec F S256x512 .f32) :
    sout0_A_0 c i arg2 harg2 arg3 harg3 arg4 harg4 arg5 harg5 arg6 harg6 arg7 harg7 arg8 harg8 hc0 hc1 x0 x1 x2 x3 x4 = step x0 x1 x2 x3 x4 (k0_pay3 (F := F)) := by
  unfold sout0_A_0
  rw [View.read_writes_eq_canon _ _ _ (scover0_A_0 c i arg2 harg2 arg3 harg3 arg4 harg4 arg5 harg5 arg6 harg6 arg7 harg7 arg8 harg8 hc0 hc1 x0 x1 x2 x3 x4)]
  unfold kernelRun0_A
  dsimp only
  sl_unfold_words
  rw [View.canon_cons_unit_zero (S := S1x1) hz2, View.readCov_unit_zero (S := S1x1) _ hz2]
  simp only [View.readAt_eq_ld, harg2.read_unread, harg3.read_unread, harg4.read_unread, harg5.read_unread, harg6.read_unread, harg7.read_unread, harg8.read_unread, View.ld_unit_zero (S := S256x512) hz2, View.ld_unit_zero (S := S1x1) hz2]
  rfl

end Cert.KernelIdeal.Pieces

end
-- ==== Proof.RowLoss.lean ====
/-
  The loss of one row, as one function of five rows of extended reals, and the two ways a mean over eight
  slices is spelt.

  For a row `b` and a row `v` (indexed by a finite type), `cosExp eps one b v` is
  `exp ((⟨b, v⟩ / max (‖b‖ · ‖v‖) eps) / one)` with `⟨b, v⟩ = ∑ b d · v d` and `‖v‖ = √(∑ v d · v d)`: the exponential
  of the cosine similarity, the product of the norms kept away from zero by `eps`, divided by a temperature `one`.
  `rowLoss` is `-(log (pos / (neg + pos) + eps))` with `pos` the sum of the two terms against the two mean rows and
  `neg` the sum of the two terms against the two negative rows.

  A mean over eight slices is the sum times one eighth. It is met in two spellings: eight additions onto zero
  followed by a product with the float `0.125` (exactly `1/8`), and a sum from zero followed by a quotient by the
  float `8.0`; on the extended reals a quotient by a nonzero real is the product with its inverse, so both are the
  mean, for every extended real and with no finiteness assumed.
-/
import Idealize.ShloMosaic.PureOps.Ideal
import Idealize.ShloMosaic.PureOps.Ideal.Laws
import Idealize.ShloMosaic.Lib.ValueIdx

noncomputable section

namespace Cert.RowLoss

open Idealize.ShloMosaic Idealize.ShloMosaic.ValueIdx

variable {ι : Type} [Fintype ι]

/-- The cosine similarity of `b` and `v`, the product of the norms bounded below by `eps`. -/
def cosRaw (eps : EReal) (b v : ι → EReal) : EReal :=
  Ideal.div (∑ d, b d * v d) (max (Ideal.sqrt (∑ d, b d * b d) * Ideal.sqrt (∑ d, v d * v d)) eps)

/-- The exponential of the cosine similarity of `b` and `v` over a temperature `one`. -/
def cosExp (eps one : EReal) (b v : ι → EReal) : EReal :=
  Ideal.exp (Ideal.div (cosRaw eps b v) one)

/-- The float `1e-8` (its nearest single-precision value), both the bound under the norms and the shift inside the
    logarithm; and the float `1.0`, the temperature. Both sides spell the same words, so neither is evaluated. -/
abbrev epsW : EReal := Ideal.ofBits .f32 0x322BCC77#32
abbrev oneW : EReal := Ideal.ofBits .f32 0x3F800000#32

/-- The loss of one row: minus the logarithm of the positive terms' share of all terms, plus `eps`. -/
def rowLoss (eps one : EReal) (b p c n1 n2 : ι → EReal) : EReal :=
  -(Ideal.log (Ideal.div (cosExp eps one b p + cosExp eps one b c)
      ((cosExp eps one b n1 + cosExp eps one b n2) + (cosExp eps one b p + cosExp eps one b c)) + eps))

/-- The mean of eight extended reals: their sum times one eighth. -/
def mean8 (a : Fin 8 → EReal) : EReal := (∑ k, a k) * ((1 / 8 : ℝ) : EReal)

/-- The float `0.125` denotes the real `1/8`. -/
theorem ofBits_eighth : Ideal.ofBits .f32 0x3E000000#32 = ((1 / 8 : ℝ) : EReal) := by
  simp [Ideal.ofBits, Ideal.ieee, -EReal.coe_mul]; norm_num

/-- The float `8.0` denotes the real `8`. -/
theorem ofBits_eight : Ideal.ofBits .f32 0x41000000#32 = ((8 : ℝ) : EReal) := by
  simp [Ideal.ofBits, Ideal.ieee, -EReal.coe_mul]; norm_num

/-- Eight additions onto the float zero, then the product with the float `0.125`: the mean. -/
theorem mean8_of_chain (a : Fin 8 → EReal) :
    ((((((((Ideal.ofBits .f32 0x00000000#32 + a 0) + a 1) + a 2) + a 3) + a 4) + a 5) + a 6) + a 7)
      * Ideal.ofBits .f32 0x3E000000#32 = mean8 a := by
  rw [Ideal.ofBits_zero_f32, zero_add, ofBits_eighth, mean8, Fin.sum_univ_eight]

/-- The sum from the float zero, then the quotient by the float `8.0`: the mean. -/
theorem mean8_of_div (a : Fin 8 → EReal) :
    Ideal.div (Ideal.ofBits .f32 0x00000000#32 + ∑ k, a k) (Ideal.ofBits .f32 0x41000000#32) = mean8 a := by
  rw [Ideal.ofBits_zero_f32, zero_add, ofBits_eight, Ideal.div_coe (by norm_num : (8 : ℝ) ≠ 0), mean8]

/-- Subtracting from zero is negating. -/
theorem zero_sub_eq_neg (x : EReal) : Ideal.ofBits .f32 0x00000000#32 - x = -x := by
  rw [Ideal.ofBits_zero_f32, zero_sub]

/-- The loss of row number `r` of the five arrays (the base array, the two stacks of eight, the two negative
    arrays): `rowLoss` of row `r` of the base array, the two rows of means over the stacks, and row `r` of the two
    negative arrays; zero past the last row, so that it is a function of every natural number. -/
def lossAt (A0 : (⟨2, ![8192, 512]⟩ : Shape).Idx → EReal) (A1 A3 : (⟨3, ![8, 8192, 512]⟩ : Shape).Idx → EReal)
    (A4 A5 : (⟨2, ![8192, 512]⟩ : Shape).Idx → EReal) (r : ℕ) : EReal :=
  if h : r < 8192 then
    rowLoss epsW oneW (fun d : Fin 512 => A0 (ix2 (⟨r, h⟩ : Fin 8192) d))
      (fun d : Fin 512 => mean8 (fun k => A1 (ix3 k (⟨r, h⟩ : Fin 8192) d)))
      (fun d : Fin 512 => mean8 (fun k => A3 (ix3 k (⟨r, h⟩ : Fin 8192) d)))
      (fun d : Fin 512 => A4 (ix2 (⟨r, h⟩ : Fin 8192) d)) (fun d : Fin 512 => A5 (ix2 (⟨r, h⟩ : Fin 8192) d))
  else 0

/-- The sum of the 8192 row losses. -/
def total (A0 : (⟨2, ![8192, 512]⟩ : Shape).Idx → EReal) (A1 A3 : (⟨3, ![8, 8192, 512]⟩ : Shape).Idx → EReal)
    (A4 A5 : (⟨2, ![8192, 512]⟩ : Shape).Idx → EReal) : EReal :=
  ∑ r ∈ Finset.range 8192, lossAt A0 A1 A3 A4 A5 r

end Cert.RowLoss

end
-- ==== Proof.LibIndex.lean ====
/-
  General lemmas: layout operations of rank-two arrays read at an index, row sums, and the plain matrix
  product as a sum over the shared axis. None mentions a program; all are stated over literal-rank shapes
  `[a, b]` with indices built from coordinates.
-/
import Idealize.ShloMosaic.Lib.ValueIdx
import Idealize.ShloMosaic.Lib.ValueLayout
import Idealize.ShloMosaic.Lib.Pipeline.Value
import Idealize.ShloMosaic.PureOps.Ideal.Laws

noncomputable section

namespace Cert.LayoutLib

open Idealize.ShloMosaic Idealize.ShloMosaic.ValueIdx

variable {α : Type}

/-- A vector `[a]` cast to a column `[a, 1]` (a sum's `keepdims`) reads, at `(p, u)`, the vector at `p`. -/
theorem shapeCast_col_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    omega)

/-- A column `[a, 1]` broadcast along the rows to `[a, b]` reads, at `(p, c)`, the column at `p`. -/
theorem broadcastTo_col_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of a column `[a, 1]` to `[a, b]` (both axes kept in place) reads the column at `p`. -/
theorem broadcastInDim_col_apply {a b : ℕ}
    (h : (⟨2, ![a, 1]⟩ : Shape).BroadcastsInDim ⟨2, ![a, b]⟩ (![0, 1] : Fin 2 → Fin 2))
    (x : (⟨2, ![a, 1]⟩ : Shape).Idx → α) (p : Fin a) (c : Fin b) :
    broadcastInDim ⟨2, ![a, b]⟩ ![0, 1] h x (ix2 p c) = x (ix2 p (0 : Fin 1)) := by
  refine broadcastInDim_apply _ h x (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of a row `[1, b]` to `[a, b]` reads the row at `c`. -/
theorem broadcastInDim_row_apply {a b : ℕ}
    (h : (⟨2, ![1, b]⟩ : Shape).BroadcastsInDim ⟨2, ![a, b]⟩ (![0, 1] : Fin 2 → Fin 2))
    (x : (⟨2, ![1, b]⟩ : Shape).Idx → α) (p : Fin a) (c : Fin b) :
    broadcastInDim ⟨2, ![a, b]⟩ ![0, 1] h x (ix2 p c) = x (ix2 (0 : Fin 1) c) := by
  refine broadcastInDim_apply _ h x (ix2 p c) (ix2 (0 : Fin 1) c) fun ax => ?_
  match ax with
  | ⟨0, _⟩ => rfl
  | ⟨1, _⟩ =>
    show c.val = if b = 1 then 0 else c.val
    split
    · have := c.isLt; omega
    · rfl

/-- The host's broadcast of a vector `[b]` to one row `[1, b]` reads the vector at `c`. -/
theorem broadcastInDim_vecRow_apply {b : ℕ}
    (h : (⟨1, ![b]⟩ : Shape).BroadcastsInDim ⟨2, ![1, b]⟩ (![1] : Fin 1 → Fin 2))
    (x : (⟨1, ![b]⟩ : Shape).Idx → α) (u : Fin 1) (c : Fin b) :
    broadcastInDim ⟨2, ![1, b]⟩ ![1] h x (ix2 u c) = x (ix1 c) := by
  refine broadcastInDim_apply _ h x (ix2 u c) (ix1 c) fun ax => ?_
  match ax with
  | ⟨0, _⟩ =>
    show c.val = if b = 1 then 0 else c.val
    split
    · have := c.isLt; omega
    · rfl

/-- The host's broadcast of a vector `[a]` to one column `[a, 1]` reads the vector at `p`. -/
theorem broadcastInDim_vecCol_apply {a : ℕ}
    (h : (⟨1, ![a]⟩ : Shape).BroadcastsInDim ⟨2, ![a, 1]⟩ (![0] : Fin 1 → Fin 2))
    (x : (⟨1, ![a]⟩ : Shape).Idx → α) (p : Fin a) (u : Fin 1) :
    broadcastInDim ⟨2, ![a, 1]⟩ ![0] h x (ix2 p u) = x (ix1 p) := by
  refine broadcastInDim_apply _ h x (ix2 p u) (ix1 p) fun ax => ?_
  match ax with
  | ⟨0, _⟩ =>
    show p.val = if a = 1 then 0 else p.val
    split
    · have := p.isLt; omega
    · rfl

/-- The host's broadcast of a scalar (rank zero) to any shape reads the scalar everywhere. -/
theorem broadcastInDim_scalar_apply {t : Shape}
    (h : (⟨0, ![]⟩ : Shape).BroadcastsInDim t (![] : Fin 0 → Fin t.rank))
    (x : (⟨0, ![]⟩ : Shape).Idx → α) (j : t.Idx) : broadcastInDim t ![] h x j = x ix0 :=
  broadcastInDim_apply _ h x j ix0 fun ax => ax.elim0

/-- The source index over row `p` with coordinate `k` on the summed axis is `(p, k)`. -/
theorem lift_row {a b : ℕ} (h : (⟨2, ![a, b]⟩ : Shape).Reduces [(1 : Fin 2)] ⟨1, ![a]⟩) (p : Fin a) (k : Fin b) :
    h.lift (ix1 p) k = ix2 p k :=
  funext fun c => Fin.ext (by match c with | ⟨0, _⟩ => rfl | ⟨1, _⟩ => rfl)

/-- A sum along the rows of `[a, b]`, read at row `p`, is the sum of that row's entries. -/
theorem reduceAdd_row_apply {a b : ℕ} (h : (⟨2, ![a, b]⟩ : Shape).Reduces [(1 : Fin 2)] ⟨1, ![a]⟩)
    (x : (⟨2, ![a, b]⟩ : Shape).Idx → EReal) (p : Fin a) :
    Ideal.reduceAdd h x (ix1 p) = ∑ k : Fin b, x (ix2 p k) := by
  rw [Ideal.reduceAdd_single h x (ix1 p)]
  exact Finset.sum_congr rfl fun k _ => congrArg x (lift_row h p k)

/-- The host's sum along the rows likewise: the initial value plus the row's sum. -/
theorem hostReduceAdd_row_apply {a b : ℕ} (h' : (⟨2, ![a, b]⟩ : Shape).ReducesTo [(1 : Fin 2)] ⟨1, ![a]⟩)
    (h : (⟨2, ![a, b]⟩ : Shape).Reduces [(1 : Fin 2)] ⟨1, ![a]⟩)
    (x : (⟨2, ![a, b]⟩ : Shape).Idx → EReal) (init : EReal) (p : Fin a) :
    Ideal.hostReduceAdd h' x init (ix1 p) = init + ∑ k : Fin b, x (ix2 p k) := by
  rw [Ideal.hostReduceAdd_single h' h x init (ix1 p)]
  exact congrArg (init + ·) (Finset.sum_congr rfl fun k _ => congrArg x (lift_row h p k))

/-- The plain `[M, K] × [K, N]` product's sum over its contraction index, at output `(p, q)`, is the sum over
    `k : Fin K` of the left operand at `(p, k)` times the right operand at `(k, q)`. -/
theorem dot_plain_sum {M K N : ℕ} (D : DotDims ⟨2, ![M, K]⟩ ⟨2, ![K, N]⟩ ⟨2, ![M, N]⟩) (hD : D = DotDims.plain M K N)
    (l : (⟨2, ![M, K]⟩ : Shape).Idx → EReal) (r : (⟨2, ![K, N]⟩ : Shape).Idx → EReal) (p : Fin M) (q : Fin N) :
    ∑ k : D.contr.Idx, l (D.lhsIdx (ix2 p q) k) * r (D.rhsIdx (ix2 p q) k) = ∑ k : Fin K, l (ix2 p k) * r (ix2 k q) := by
  subst hD
  rw [← Equiv.sum_comp (contrEquiv1 (DotDims.plain M K N) K rfl rfl).symm]
  refine Finset.sum_congr rfl fun k _ => ?_
  have e := contrEquiv1_symm_val (DotDims.plain M K N) K rfl rfl k
  have hl : (DotDims.plain M K N).lhsIdx (ix2 p q) ((contrEquiv1 (DotDims.plain M K N) K rfl rfl).symm k) = ix2 p k :=
    funext fun c => Fin.ext (by
      match c with
      | ⟨0, _⟩ => rfl
      | ⟨1, _⟩ => exact ((DotDims.plain M K N).lhsIdx_val_of_single (cl := (1 : Fin 2)) rfl _ _).trans e)
  have hr : (DotDims.plain M K N).rhsIdx (ix2 p q) ((contrEquiv1 (DotDims.plain M K N) K rfl rfl).symm k) = ix2 k q :=
    funext fun c => Fin.ext (by
      match c with
      | ⟨0, _⟩ => exact ((DotDims.plain M K N).rhsIdx_val_of_single (cr := (0 : Fin 2)) rfl _ _).trans e
      | ⟨1, _⟩ => rfl)
  rw [hl, hr]

end Cert.LayoutLib

end
-- ==== Proof.LibLaneSum.lean ====
/-
  General lemmas: a vector unit's lane sum (`vector.multi_reduction <add>` from the zero word) of a rank-two array
  along either axis, read at an index as the plain finite sum of that row's or that column's entries over the
  extended reals. They are stated with the accumulator's evidence typed as a printed program carries it (an
  equation between two copies of the zero word), so that they apply to a printed term as it stands. None mentions a
  program.
-/
import Idealize.ShloMosaic.Lib.ValueIdx
import Idealize.ShloMosaic.PureOps.Ideal.Laws

noncomputable section

namespace Cert.LaneSum

open Idealize.ShloMosaic Idealize.ShloMosaic.ValueIdx

/-- The source index over row `p` with coordinate `k` on the summed (second) axis is `(p, k)`. -/
theorem lift_row {a b : ℕ} (h : (⟨2, ![a, b]⟩ : Shape).Reduces [(1 : Fin 2)] ⟨1, ![a]⟩) (p : Fin a) (k : Fin b) :
    h.lift (ix1 p) k = ix2 p k :=
  funext fun c => Fin.ext (by match c with | ⟨0, _⟩ => rfl | ⟨1, _⟩ => rfl)

/-- The source index over column `u` with coordinate `k` on the summed (first) axis is `(k, u)`. -/
theorem lift_col {a b : ℕ} (h : (⟨2, ![a, b]⟩ : Shape).Reduces [(0 : Fin 2)] ⟨1, ![b]⟩) (u : Fin b) (k : Fin a) :
    h.lift (ix1 u) k = ix2 k u :=
  funext fun c => Fin.ext (by match c with | ⟨0, _⟩ => rfl | ⟨1, _⟩ => rfl)

/-- A lane sum along the rows of `[a, b]` from the zero word, read at row `p`: the sum of that row's entries. -/
theorem multiReduction_row_apply {a b : ℕ} (v : FVec Ideal ⟨2, ![a, b]⟩ .f32)
    (h : (⟨2, ![a, b]⟩ : Shape).Reduces [(1 : Fin 2)] ⟨1, ![a]⟩) (hφ : FKind.Formats FTy.f32)
    (hacc : (0x00000000#32 : BitVec 32) = 0x00000000#32) (p : Fin a) :
    multiReduction .add [(1 : Fin 2)] ⟨1, ![a]⟩ v 0x00000000#32 h hφ hacc (ix1 p) = ∑ k : Fin b, v (ix2 p k) :=
  (Ideal.multiReduction_add_single v 0x00000000#32 h hφ hacc (ix1 p)).trans
    (Finset.sum_congr rfl fun k _ => congrArg v (lift_row h p k))

/-- A lane sum down the columns of `[a, b]` from the zero word, read at column `u`: the sum of that column's entries. -/
theorem multiReduction_col_apply {a b : ℕ} (v : FVec Ideal ⟨2, ![a, b]⟩ .f32)
    (h : (⟨2, ![a, b]⟩ : Shape).Reduces [(0 : Fin 2)] ⟨1, ![b]⟩) (hφ : FKind.Formats FTy.f32)
    (hacc : (0x00000000#32 : BitVec 32) = 0x00000000#32) (u : Fin b) :
    multiReduction .add [(0 : Fin 2)] ⟨1, ![b]⟩ v 0x00000000#32 h hφ hacc (ix1 u) = ∑ k : Fin a, v (ix2 k u) :=
  (Ideal.multiReduction_add_single v 0x00000000#32 h hφ hacc (ix1 u)).trans
    (Finset.sum_congr rfl fun k _ => congrArg v (lift_col h u k))

end Cert.LaneSum

end
-- ==== Proof.StepValue.lean ====
/-
  The body's arithmetic at the ideal instance, read at an index.

  `Pieces.step` of the five input blocks and the scratch's previous entry is that entry plus the sum, over the
  block's 256 rows `q`, of `RowLoss.rowLoss` of row `q` of the base block, the two mean rows (the means over the eight
  slices of the two stacked blocks) and row `q` of the two negative blocks. The steps: a slice of a stacked block read
  at an index; the two mean blocks (one spelt whole in one payload, the other finished inside the cosine payload);
  the cosine column of a block against the base block, at a row, as `RowLoss.cosRaw` of the two rows; and the last
  payload, which exponentiates, forms the ratio, takes minus the logarithm, sums the column and adds the entry.
-/
import proofs.«166223_j83141976916016_2_alg».proof.Proof.Pieces
import proofs.«166223_j83141976916016_2_alg».proof.Proof.RowLoss
import proofs.«166223_j83141976916016_2_alg».proof.Proof.LibIndex
import proofs.«166223_j83141976916016_2_alg».proof.Proof.LibLaneSum
import Idealize.ShloMosaic.Lib.ValueIdx
import Idealize.ShloMosaic.Lib.ValueLayout
import Idealize.ShloMosaic.PureOps.Ideal.Laws

set_option maxRecDepth 16384
noncomputable section

open Idealize.ShloMosaic Idealize.ShloMosaic.TcCoe Idealize.SL.Sem

namespace Cert.KernelIdeal.StepValue

open Cert.KernelIdeal Cert.KernelIdeal.Gen Cert.KernelIdeal.Pieces Cert.RowLoss Cert.LayoutLib Cert.LaneSum
open Idealize.ShloMosaic.ValueIdx

/-- Row `q` of a 256 × 512 block. -/
def row (v : S256x512.Idx → EReal) (q : Fin 256) : Fin 512 → EReal := fun d => v (ix2 q d)

/-- Slice `o` of a stacked block, loaded through its rectangle, holds at `(0, q, d)` the stacked block's `(o, q, d)`. -/
theorem ld_slice (x : Vec Ideal S8x256x512 .f32) (o : ℕ) (ho : o < 8)
    (inb : ∀ a, (![o, 0, 0] : Fin 3 → ℕ) a + S1x256x512.size a ≤ S8x256x512.size a) (q : Fin 256) (d : Fin 512) :
    View.ld x (Rect.unit ![o, 0, 0] S1x256x512.size inb) (ix3 (0 : Fin 1) q d) = x (ix3 (⟨o, ho⟩ : Fin 8) q d) := by
  show x _ = x _
  congr 1
  funext a
  apply Fin.ext
  match a with
  | ⟨0, _⟩ => show o + 1 * 0 = o; omega
  | ⟨1, _⟩ => show 0 + 1 * q.val = q.val; omega
  | ⟨2, _⟩ => show 0 + 1 * d.val = d.val; omega

/-- The first mean block: eight additions onto zero and the product with `0.125`, as the body's payloads spell it. -/
def meanA (x : Vec Ideal S8x256x512 .f32) : FVec Ideal S256x512 .f32 :=
  k0_pay5 (k0_pay4 (View.ld x (Rect.unit ![0, 0, 0] S1x256x512.size inb_S8x256x512_S1x256x512_0_0_0))
    (View.ld x (Rect.unit ![1, 0, 0] S1x256x512.size inb_S8x256x512_S1x256x512_1_0_0))
    (View.ld x (Rect.unit ![2, 0, 0] S1x256x512.size inb_S8x256x512_S1x256x512_2_0_0))
    (View.ld x (Rect.unit ![3, 0, 0] S1x256x512.size inb_S8x256x512_S1x256x512_3_0_0))
    (View.ld x (Rect.unit ![4, 0, 0] S1x256x512.size inb_S8x256x512_S1x256x512_4_0_0))
    (View.ld x (Rect.unit ![5, 0, 0] S1x256x512.size inb_S8x256x512_S1x256x512_5_0_0)))
    (View.ld x (Rect.unit ![6, 0, 0] S1x256x512.size inb_S8x256x512_S1x256x512_6_0_0))
    (View.ld x (Rect.unit ![7, 0, 0] S1x256x512.size inb_S8x256x512_S1x256x512_7_0_0))

/-- The second mean block: six additions in one payload, the last two and the product inside the cosine payload. -/
def meanB (x : Vec Ideal S8x256x512 .f32) : FVec Ideal S256x512 .f32 :=
  mulf (addf (addf (k0_pay6 (View.ld x (Rect.unit ![0, 0, 0] S1x256x512.size inb_S8x256x512_S1x256x512_0_0_0))
    (View.ld x (Rect.unit ![1, 0, 0] S1x256x512.size inb_S8x256x512_S1x256x512_1_0_0))
    (View.ld x (Rect.unit ![2, 0, 0] S1x256x512.size inb_S8x256x512_S1x256x512_2_0_0))
    (View.ld x (Rect.unit ![3, 0, 0] S1x256x512.size inb_S8x256x512_S1x256x512_3_0_0))
    (View.ld x (Rect.unit ![4, 0, 0] S1x256x512.size inb_S8x256x512_S1x256x512_4_0_0))
    (View.ld x (Rect.unit ![5, 0, 0] S1x256x512.size inb_S8x256x512_S1x256x512_5_0_0)))
      (shapeCast S256x512 (View.ld x (Rect.unit ![6, 0, 0] S1x256x512.size inb_S8x256x512_S1x256x512_6_0_0)) shapeCasts_S1x256x512_S256x512))
      (shapeCast S256x512 (View.ld x (Rect.unit ![7, 0, 0] S1x256x512.size inb_S8x256x512_S1x256x512_7_0_0)) shapeCasts_S1x256x512_S256x512))
    (broadcast S256x512 (Scalar.ofBits .f32 0x3E000000#32))

theorem meanA_apply (x : Vec Ideal S8x256x512 .f32) (q : Fin 256) (d : Fin 512) :
    meanA x (ix2 q d) = mean8 (fun k => x (ix3 k q d)) := by
  unfold meanA k0_pay5 k0_pay4
  simp only [mulf_apply, addf_apply, broadcast_apply, shapeCast_1ab_ab_apply, Ideal.ofBits_def]
  rw [ld_slice x 0 (by omega), ld_slice x 1 (by omega), ld_slice x 2 (by omega), ld_slice x 3 (by omega),
    ld_slice x 4 (by omega), ld_slice x 5 (by omega), ld_slice x 6 (by omega), ld_slice x 7 (by omega)]
  exact mean8_of_chain (fun k => x (ix3 k q d))

theorem meanB_apply (x : Vec Ideal S8x256x512 .f32) (q : Fin 256) (d : Fin 512) :
    meanB x (ix2 q d) = mean8 (fun k => x (ix3 k q d)) := by
  unfold meanB k0_pay6
  simp only [mulf_apply, addf_apply, broadcast_apply, shapeCast_1ab_ab_apply, Ideal.ofBits_def]
  rw [ld_slice x 0 (by omega), ld_slice x 1 (by omega), ld_slice x 2 (by omega), ld_slice x 3 (by omega),
    ld_slice x 4 (by omega), ld_slice x 5 (by omega), ld_slice x 6 (by omega), ld_slice x 7 (by omega)]
  exact mean8_of_chain (fun k => x (ix3 k q d))

theorem row_meanA (x : Vec Ideal S8x256x512 .f32) (q : Fin 256) :
    row (meanA x) q = fun d => mean8 (fun k => x (ix3 k q d)) := funext fun d => meanA_apply x q d

theorem row_meanB (x : Vec Ideal S8x256x512 .f32) (q : Fin 256) :
    row (meanB x) q = fun d => mean8 (fun k => x (ix3 k q d)) := funext fun d => meanB_apply x q d

/-- The cosine column of a block `v` against the base block `x0`: row sums of the products, the product of the two
    norm columns bounded below by the float `1e-8`, their quotient. -/
def cosCol (x0 v : FVec Ideal S256x512 .f32) : FVec Ideal S256x1 .f32 :=
  divf (shapeCast S256x1 (multiReduction .add [1] S256 (mulf x0 v) 0x00000000#32 reduces_S256x512_S256 (.inl rfl) rfl) shapeCasts_S256_S256x1)
    (maximumf (mulf (k0_pay7 x0)
        (sqrt (shapeCast S256x1 (multiReduction .add [1] S256 (mulf v v) 0x00000000#32 reduces_S256x512_S256 (.inl rfl) rfl) shapeCasts_S256_S256x1)))
      (broadcast S256x1 (Scalar.ofBits .f32 0x322BCC77#32)))

theorem sqrt_apply {s : Shape} (v : FVec Ideal s .f32) (i : s.Idx) : sqrt v i = Ideal.sqrt (v i) := rfl
theorem exp_apply {s : Shape} (v : FVec Ideal s .f32) (i : s.Idx) : exp v i = Ideal.exp (v i) := rfl
theorem log_apply {s : Shape} (v : FVec Ideal s .f32) (i : s.Idx) : log v i = Ideal.log (v i) := rfl

theorem cosCol_apply (x0 v : FVec Ideal S256x512 .f32) (q : Fin 256) :
    cosCol x0 v (ix2 q (0 : Fin 1)) = cosRaw epsW (row x0 q) (row v q) := by
  unfold cosCol k0_pay7
  simp only [divf_apply, maximumf_apply, mulf_apply, sqrt_apply, broadcast_apply, shapeCast_col_apply, Ideal.ofBits_def]
  rw [multiReduction_row_apply (mulf x0 v) reduces_S256x512_S256 _ _ q,
    multiReduction_row_apply (mulf x0 x0) reduces_S256x512_S256 _ _ q,
    multiReduction_row_apply (mulf v v) reduces_S256x512_S256 _ _ q]
  rfl

/-- The loss column: from the two positive cosine data (the first already exponentiated, as the body hands it on)
    and the two negative blocks, minus the logarithm of the positive share plus the float `1e-8`, row by row. -/
def lossCol (x0 x3 x4 : FVec Ideal S256x512 .f32) (p1 c2 : FVec Ideal S256x1 .f32) : FVec Ideal S256x1 .f32 :=
  subf (broadcast S256x1 (Scalar.ofBits .f32 0x00000000#32))
    (log (addf (divf (addf p1 (exp (divf c2 (broadcast S256x1 (Scalar.ofBits .f32 0x3F800000#32)))))
        (addf (addf (exp (divf (cosCol x0 x3) (broadcast S256x1 (Scalar.ofBits .f32 0x3F800000#32)))) (exp (divf (cosCol x0 x4) (broadcast S256x1 (Scalar.ofBits .f32 0x3F800000#32)))))
          (addf p1 (exp (divf c2 (broadcast S256x1 (Scalar.ofBits .f32 0x3F800000#32)))))))
      (broadcast S256x1 (Scalar.ofBits .f32 0x322BCC77#32))))

/-- `step` is the previous entry plus the lane sum down the loss column: the payloads unfolded, nothing else. -/
theorem step_eq (x0 : Vec Ideal S256x512 .f32) (x1 x2 : Vec Ideal S8x256x512 .f32) (x3 x4 : Vec Ideal S256x512 .f32)
    (xs : Vec Ideal S1x1 .f32) :
    step (F := Ideal) x0 x1 x2 x3 x4 xs
      = shapeCast S1x1 (addf xs (shapeCast S1x1
          (multiReduction .add [0] S1
            (lossCol x0 x3 x4 (exp (divf (cosCol x0 (meanA x1)) (broadcast S256x1 (Scalar.ofBits .f32 0x3F800000#32)))) (cosCol x0 (meanB x2)))
            0x00000000#32 reduces_S256x1_S1 (.inl rfl) rfl) shapeCasts_S1_S1x1)) shapeCasts_S1x1_S1x1 := rfl

theorem idx11 (j : S1x1.Idx) : j = ix2 (0 : Fin 1) (0 : Fin 1) :=
  funext fun a => Fin.ext (by
    match a with
    | ⟨0, _⟩ => have h := idx2_lt0 (n0 := 1) (n1 := 1) j; show (j 0).val = 0; omega
    | ⟨1, _⟩ => have h := idx2_lt1 (n0 := 1) (n1 := 1) j; show (j 1).val = 0; omega)

/-- The loss column at row `q` is the row loss of the five rows. -/
theorem lossCol_apply (x0 x3 x4 vp vc : FVec Ideal S256x512 .f32) (q : Fin 256) :
    lossCol x0 x3 x4 (exp (divf (cosCol x0 vp) (broadcast S256x1 (Scalar.ofBits .f32 0x3F800000#32)))) (cosCol x0 vc) (ix2 q (0 : Fin 1))
      = rowLoss epsW oneW (row x0 q) (row vp q) (row vc q) (row x3 q) (row x4 q) := by
  unfold lossCol
  simp only [subf_apply, log_apply, addf_apply, divf_apply, exp_apply, broadcast_apply, cosCol_apply, Ideal.ofBits_def]
  rw [zero_sub_eq_neg]
  rfl

/-- THE STEP, READ: the entry after a point is the entry before it plus the block's 256 row losses. -/
theorem step_apply (x0 : Vec Ideal S256x512 .f32) (x1 x2 : Vec Ideal S8x256x512 .f32) (x3 x4 : Vec Ideal S256x512 .f32)
    (xs : Vec Ideal S1x1 .f32) (j : S1x1.Idx) :
    step (F := Ideal) x0 x1 x2 x3 x4 xs j
      = xs (ix2 (0 : Fin 1) (0 : Fin 1)) + ∑ q : Fin 256, rowLoss epsW oneW (row x0 q)
          (fun d => mean8 (fun k => x1 (ix3 k q d))) (fun d => mean8 (fun k => x2 (ix3 k q d))) (row x3 q) (row x4 q) := by
  obtain rfl := idx11 j
  rw [step_eq, shapeCast_self, addf_apply, shapeCast_col_apply, multiReduction_col_apply]
  refine congrArg (xs (ix2 (0 : Fin 1) (0 : Fin 1)) + ·) (Finset.sum_congr rfl fun q _ => ?_)
  rw [lossCol_apply, row_meanA, row_meanB]

end Cert.KernelIdeal.StepValue

end
-- ==== Proof.LibBlockSum.lean ====
/-
  General lemmas on finite sums in a commutative monoid: a sum over `A * B` consecutive naturals regrouped as `A`
  consecutive blocks of `B`; a sum over the indices of a rank-one shape as a sum over `Fin n`; and a running sum
  that restarts every `P` steps, in closed form. None mentions a program.
-/
import Idealize.ShloMosaic.Lib.ValueIdx

noncomputable section

namespace Cert.BlockSum

open Idealize.ShloMosaic Idealize.ShloMosaic.ValueIdx

variable {M : Type*} [AddCommMonoid M]

/-- `A` consecutive blocks of `B` terms: the sum over all `A * B` of them. -/
theorem sum_blocks (A B : ℕ) (f : ℕ → M) :
    ∑ t ∈ Finset.range A, ∑ q ∈ Finset.range B, f (B * t + q) = ∑ r ∈ Finset.range (A * B), f r := by
  induction A with
  | zero => simp
  | succ A ih =>
    rw [Finset.sum_range_succ, ih, Nat.succ_mul, Finset.sum_range_add, Nat.mul_comm B A]

/-- The indices of a rank-one shape `[n]` are the numbers below `n`. -/
def ix1Equiv (n : ℕ) : Fin n ≃ (⟨1, ![n]⟩ : Shape).Idx where
  toFun := ix1
  invFun j := ⟨(j 0).val, (j 0).isLt⟩
  left_inv _ := rfl
  right_inv j := (eq_ix1 j).symm

/-- A sum over the indices of `[n]` is the sum over `Fin n` of the entries at `ix1`. -/
theorem sum_idx1 {n : ℕ} (f : (⟨1, ![n]⟩ : Shape).Idx → M) : ∑ j, f j = ∑ r : Fin n, f (ix1 r) :=
  (Fintype.sum_equiv (ix1Equiv n) (fun r => f (ix1 r)) f fun _ => rfl).symm

/-- A running sum restarted every `P` steps: at a multiple of `P` it restarts at that step's term, elsewhere it is the
    running sum before plus the step's term. -/
def runSum (P : ℕ) (f : ℕ → M) : ℕ → M
  | 0 => f 0
  | n + 1 => if (n + 1) % P = 0 then f (n + 1) else runSum P f n + f (n + 1)

theorem runSum_zero (P : ℕ) (f : ℕ → M) : runSum P f 0 = f 0 := rfl

theorem runSum_restart (P : ℕ) (f : ℕ → M) (n : ℕ) (h : (n + 1) % P = 0) : runSum P f (n + 1) = f (n + 1) := by
  rw [runSum, if_pos h]

theorem runSum_step (P : ℕ) (f : ℕ → M) (n : ℕ) (h : ¬(n + 1) % P = 0) :
    runSum P f (n + 1) = runSum P f n + f (n + 1) := by
  rw [runSum, if_neg h]

/-- Within period `k`, after `j + 1` steps: the sum of the period's first `j + 1` terms. -/
theorem runSum_period (P : ℕ) (f : ℕ → M) (k j : ℕ) (hj : j < P) :
    runSum P f (P * k + j) = ∑ q ∈ Finset.range (j + 1), f (P * k + q) := by
  induction j with
  | zero =>
    rw [Finset.sum_range_one, Nat.add_zero]
    cases hk : P * k with
    | zero => rfl
    | succ n' =>
      exact runSum_restart P f n' (by rw [← hk]; exact Nat.mul_mod_right P k)
  | succ j ih =>
    have hm : ¬(P * k + j + 1) % P = 0 := by
      rw [Nat.add_assoc, Nat.mul_add_mod, Nat.mod_eq_of_lt hj]; exact Nat.succ_ne_zero j
    rw [show P * k + (j + 1) = (P * k + j) + 1 from rfl, runSum_step P f _ hm, ih (Nat.lt_of_succ_lt hj),
      Finset.sum_range_succ (fun q => f (P * k + q)) (j + 1)]
    rfl

end Cert.BlockSum

end
-- ==== Proof.Accum.lean ====
/-
  The scratch entry after every grid point, and the output block at a core's last point.

  With `blockLoss t` the sum of the 256 row losses of the blocks at point `t`, the one-entry scratch holds, after
  point `n`, the running sum of the block losses restarted every sixteen points (`BlockSum.runSum 16`): a core's first
  point stores zero and adds its block loss, every other point adds its block loss to what the point before left.
  The proof is an induction on the point over the frame's three case equations, each case's pieces read by
  `Pieces` and `StepValue`. At a core's last point the output block holds that running sum at every position.
-/
import proofs.«166223_j83141976916016_2_alg».proof.Proof.StepValue
import proofs.«166223_j83141976916016_2_alg».proof.Proof.LibBlockSum

set_option maxRecDepth 16384
noncomputable section

open Idealize.ShloMosaic Idealize.ShloMosaic.TcCoe Idealize.SL.Sem

namespace Cert.KernelIdeal.Accum

open Cert.KernelIdeal Cert.KernelIdeal.Gen Cert.KernelIdeal.Pieces Cert.KernelIdeal.StepValue Cert.RowLoss Cert.BlockSum
open Idealize.ShloMosaic.ValueIdx

variable (m : (ℓ : Loc nD τ sig) → Buf (Elt Ideal) ℓ) (c : Dev nD)

/-- The sum of the 256 row losses of five blocks. -/
def blockLossOf (x0 : Vec Ideal S256x512 .f32) (x1 x2 : Vec Ideal S8x256x512 .f32) (x3 x4 : Vec Ideal S256x512 .f32) : EReal :=
  ∑ q : Fin 256, rowLoss epsW oneW (row x0 q) (fun d => mean8 (fun k => x1 (ix3 k q d)))
    (fun d => mean8 (fun k => x2 (ix3 k q d))) (row x3 q) (row x4 q)

/-- The block loss at grid point `t`: of the five windows' blocks there. -/
def blockLoss (t : Fin cfg0.N) : EReal :=
  blockLossOf (iblk m c 0 t) (iblk m c 1 t) (iblk m c 2 t) (iblk m c 3 t) (iblk m c 4 t)

/-- The same as a function of every natural number (zero past the grid). -/
def blockLossN (n : ℕ) : EReal := if h : n < cfg0.N then blockLoss m c ⟨n, h⟩ else 0

/-- The zero entry a core's first point stores. -/
theorem pay3_apply (j : S1x1.Idx) : k0_pay3 (F := Ideal) j = 0 := by
  unfold k0_pay3
  rw [shapeCast_self]
  exact Ideal.ofBits_zero_f32

/-- The broadcast a core's last point stores reads the entry everywhere. -/
theorem pay2_apply (v : Vec Ideal S1x1 .f32) (y : S8x128.Idx) : k0_pay2 v y = v (ix2 (0 : Fin 1) (0 : Fin 1)) := by
  unfold k0_pay2
  rw [shapeCast_self]
  exact broadcastTo_apply v broadcasts_S1x1_S8x128 y (ix2 (0 : Fin 1) (0 : Fin 1)) (fun a => by
    match a with
    | ⟨0, _⟩ => rfl
    | ⟨1, _⟩ => rfl)

/-- A core's first point leaves its block loss. -/
theorem point_A (t : Fin cfg0.N) (h0 : t.val % 16 = 0) (h1 : ¬t.val % 16 = 15) (j : S1x1.Idx) :
    (outsAt0 m c t.val t.isLt).2 j = blockLoss m c t := by
  rw [outsAt0_A m c t h0 h1]
  dsimp only
  rw [scratch_A c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk m c 0 t) (iblk m c 1 t) (iblk m c 2 t) (iblk m c 3 t) (iblk m c 4 t),
    step_apply (iblk m c 0 t) (iblk m c 1 t) (iblk m c 2 t) (iblk m c 3 t) (iblk m c 4 t) (k0_pay3 (F := Ideal)) j, pay3_apply, zero_add]
  rfl

/-- A middle point adds its block loss to what the point before left. -/
theorem point_B (t : Fin cfg0.N) (h0 : ¬t.val % 16 = 0) (h1 : ¬t.val % 16 = 15) (j : S1x1.Idx) :
    (outsAt0 m c t.val t.isLt).2 j = (outsAt0 m c (t.val - 1) (Nat.lt_of_le_of_lt (Nat.sub_le _ _) t.isLt)).2 (ix2 (0 : Fin 1) (0 : Fin 1)) + blockLoss m c t := by
  rw [outsAt0_B m c t h0 h1]
  dsimp only
  rw [scratch_B c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2,
    step_apply (iblk m c 0 t) (iblk m c 1 t) (iblk m c 2 t) (iblk m c 3 t) (iblk m c 4 t) (outsAt0 m c (t.val - 1) (Nat.lt_of_le_of_lt (Nat.sub_le _ _) t.isLt)).2 j]
  rfl

/-- So does a core's last point, -/
theorem point_C (t : Fin cfg0.N) (h0 : ¬t.val % 16 = 0) (h1 : t.val % 16 = 15) (j : S1x1.Idx) :
    (outsAt0 m c t.val t.isLt).2 j = (outsAt0 m c (t.val - 1) (Nat.lt_of_le_of_lt (Nat.sub_le _ _) t.isLt)).2 (ix2 (0 : Fin 1) (0 : Fin 1)) + blockLoss m c t := by
  rw [outsAt0_C m c t h0 h1]
  dsimp only
  rw [scratch_C c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2,
    step_apply (iblk m c 0 t) (iblk m c 1 t) (iblk m c 2 t) (iblk m c 3 t) (iblk m c 4 t) (outsAt0 m c (t.val - 1) (Nat.lt_of_le_of_lt (Nat.sub_le _ _) t.isLt)).2 j]
  rfl

/-- and its output block holds the new scratch entry at every position. -/
theorem out_at_C (t : Fin cfg0.N) (h0 : ¬t.val % 16 = 0) (h1 : t.val % 16 = 15) (y : S8x128.Idx) :
    (outsAt0 m c t.val t.isLt).1 y = (outsAt0 m c t.val t.isLt).2 (ix2 (0 : Fin 1) (0 : Fin 1)) := by
  rw [outsAt0_C m c t h0 h1]
  dsimp only
  rw [out_C c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2,
    scratch_C c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2,
    pay2_apply]

/-- THE ACCUMULATION: after point `n` the scratch entry is the running sum of the block losses, restarted every
    sixteen points. -/
theorem scratch_eq : ∀ (n : ℕ) (hn : n < cfg0.N) (j : S1x1.Idx),
    (outsAt0 m c n hn).2 j = runSum 16 (blockLossN m c) n
  | 0, hn, j => by
    rw [runSum_zero]
    exact (point_A m c ⟨0, hn⟩ rfl (by show ¬(0 % 16 = 15); decide) j).trans (by unfold blockLossN; rw [dif_pos hn])
  | n + 1, hn, j => by
    have hN : n + 1 < 32 := lt_of_lt_of_eq hn (show cfg0.N = 32 from N_0)
    have hB : blockLoss m c ⟨n + 1, hn⟩ = blockLossN m c (n + 1) := by unfold blockLossN; rw [dif_pos hn]
    by_cases h0 : (n + 1) % 16 = 0
    · rw [runSum_restart 16 _ n h0]
      exact (point_A m c ⟨n + 1, hn⟩ h0 (by dsimp only; omega) j).trans hB
    · rw [runSum_step 16 _ n h0, ← hB, ← scratch_eq n (Nat.lt_of_succ_lt hn) (ix2 (0 : Fin 1) (0 : Fin 1))]
      by_cases h1 : (n + 1) % 16 = 15
      · exact point_C m c ⟨n + 1, hn⟩ h0 h1 j
      · exact point_B m c ⟨n + 1, hn⟩ h0 h1 j

end Cert.KernelIdeal.Accum

end
-- ==== Proof.BlockRead.lean ====
/-
  The blocks the windows stage at a grid point are rows of the argument arrays.

  At point `t` (core `t / 16`, step `t % 16`) the base window and the two negative windows stage rows
  `256 t … 256 t + 255` of their arrays, and the two stacked windows stage those rows of each of the eight slices:
  every index map sends the point to block `16 (t / 16) + t % 16 = t` along the row axis, which is decided over
  the 32 points. So the block loss at point `t` is the sum of `RowLoss.lossAt` over those 256 consecutive rows.
-/
import proofs.«166223_j83141976916016_2_alg».proof.Proof.Accum

set_option maxRecDepth 16384
noncomputable section

open Idealize.ShloMosaic Idealize.ShloMosaic.TcCoe Idealize.SL.Sem

namespace Cert.KernelIdeal.BlockRead

open Cert.KernelIdeal Cert.KernelIdeal.Gen Cert.KernelIdeal.StepValue Cert.KernelIdeal.Accum Cert.RowLoss Cert.BlockSum
open Idealize.ShloMosaic.ValueIdx

variable (m : (ℓ : Loc nD τ sig) → Buf (Elt Ideal) ℓ) (c : Dev nD)

/-- Where each window's block sits at point `t`, in blocks along each axis. -/
theorem index_facts : ∀ t : Fin cfg0.N,
    (win0_0.index t (0 : Fin 2) = t.val ∧ win0_0.index t (1 : Fin 2) = 0)
    ∧ (win0_1.index t (0 : Fin 3) = 0 ∧ win0_1.index t (1 : Fin 3) = t.val ∧ win0_1.index t (2 : Fin 3) = 0)
    ∧ (win0_2.index t (0 : Fin 3) = 0 ∧ win0_2.index t (1 : Fin 3) = t.val ∧ win0_2.index t (2 : Fin 3) = 0)
    ∧ (win0_3.index t (0 : Fin 2) = t.val ∧ win0_3.index t (1 : Fin 2) = 0)
    ∧ (win0_4.index t (0 : Fin 2) = t.val ∧ win0_4.index t (1 : Fin 2) = 0)
    ∧ (win0_5.index t (0 : Fin 2) = t.val / 16 ∧ win0_5.index t (1 : Fin 2) = 0) :=
  (by decide +kernel : ∀ t : Fin grid0.N, _)

theorem blk0_apply (t : Fin cfg0.N) (q : Fin 256) (d : Fin 512) (h : 256 * t.val + q.val < 8192) :
    (iblk m c 0 t : Vec Ideal S256x512 .f32) (ix2 q d) = (m ((c : Thread nD τ).loc main_arg0)) (ix2 (⟨256 * t.val + q.val, h⟩ : Fin 8192) d) := by
  unfold iblk
  rw [View.read_apply]
  show V m c main_arg0 _ = (m ((c : Thread nD τ).loc main_arg0)) _
  unfold V
  congr 1
  funext a
  apply Fin.ext
  match a with
  | ⟨0, _⟩ => show win0_0.index t 0 * 256 + 1 * q.val = 256 * t.val + q.val; rw [(index_facts t).1.1]; omega
  | ⟨1, _⟩ => show win0_0.index t 1 * 512 + 1 * d.val = d.val; rw [(index_facts t).1.2]; omega

theorem blk1_apply (t : Fin cfg0.N) (k : Fin 8) (q : Fin 256) (d : Fin 512) (h : 256 * t.val + q.val < 8192) :
    (iblk m c 1 t : Vec Ideal S8x256x512 .f32) (ix3 k q d) = (m ((c : Thread nD τ).loc main_arg1)) (ix3 k (⟨256 * t.val + q.val, h⟩ : Fin 8192) d) := by
  unfold iblk
  rw [View.read_apply]
  show V m c main_arg1 _ = (m ((c : Thread nD τ).loc main_arg1)) _
  unfold V
  congr 1
  funext a
  apply Fin.ext
  match a with
  | ⟨0, _⟩ => show win0_1.index t 0 * 8 + 1 * k.val = k.val; rw [(index_facts t).2.1.1]; omega
  | ⟨1, _⟩ => show win0_1.index t 1 * 256 + 1 * q.val = 256 * t.val + q.val; rw [(index_facts t).2.1.2.1]; omega
  | ⟨2, _⟩ => show win0_1.index t 2 * 512 + 1 * d.val = d.val; rw [(index_facts t).2.1.2.2]; omega

theorem blk2_apply (t : Fin cfg0.N) (k : Fin 8) (q : Fin 256) (d : Fin 512) (h : 256 * t.val + q.val < 8192) :
    (iblk m c 2 t : Vec Ideal S8x256x512 .f32) (ix3 k q d) = (m ((c : Thread nD τ).loc main_arg3)) (ix3 k (⟨256 * t.val + q.val, h⟩ : Fin 8192) d) := by
  unfold iblk
  rw [View.read_apply]
  show V m c main_arg3 _ = (m ((c : Thread nD τ).loc main_arg3)) _
  unfold V
  congr 1
  funext a
  apply Fin.ext
  match a with
  | ⟨0, _⟩ => show win0_2.index t 0 * 8 + 1 * k.val = k.val; rw [(index_facts t).2.2.1.1]; omega
  | ⟨1, _⟩ => show win0_2.index t 1 * 256 + 1 * q.val = 256 * t.val + q.val; rw [(index_facts t).2.2.1.2.1]; omega
  | ⟨2, _⟩ => show win0_2.index t 2 * 512 + 1 * d.val = d.val; rw [(index_facts t).2.2.1.2.2]; omega

theorem blk3_apply (t : Fin cfg0.N) (q : Fin 256) (d : Fin 512) (h : 256 * t.val + q.val < 8192) :
    (iblk m c 3 t : Vec Ideal S256x512 .f32) (ix2 q d) = (m ((c : Thread nD τ).loc main_arg4)) (ix2 (⟨256 * t.val + q.val, h⟩ : Fin 8192) d) := by
  unfold iblk
  rw [View.read_apply]
  show V m c main_arg4 _ = (m ((c : Thread nD τ).loc main_arg4)) _
  unfold V
  congr 1
  funext a
  apply Fin.ext
  match a with
  | ⟨0, _⟩ => show win0_3.index t 0 * 256 + 1 * q.val = 256 * t.val + q.val; rw [(index_facts t).2.2.2.1.1]; omega
  | ⟨1, _⟩ => show win0_3.index t 1 * 512 + 1 * d.val = d.val; rw [(index_facts t).2.2.2.1.2]; omega

theorem blk4_apply (t : Fin cfg0.N) (q : Fin 256) (d : Fin 512) (h : 256 * t.val + q.val < 8192) :
    (iblk m c 4 t : Vec Ideal S256x512 .f32) (ix2 q d) = (m ((c : Thread nD τ).loc main_arg5)) (ix2 (⟨256 * t.val + q.val, h⟩ : Fin 8192) d) := by
  unfold iblk
  rw [View.read_apply]
  show V m c main_arg5 _ = (m ((c : Thread nD τ).loc main_arg5)) _
  unfold V
  congr 1
  funext a
  apply Fin.ext
  match a with
  | ⟨0, _⟩ => show win0_4.index t 0 * 256 + 1 * q.val = 256 * t.val + q.val; rw [(index_facts t).2.2.2.2.1.1]; omega
  | ⟨1, _⟩ => show win0_4.index t 1 * 512 + 1 * d.val = d.val; rw [(index_facts t).2.2.2.2.1.2]; omega

/-- THE BLOCK LOSS at point `t` is the sum of the row losses of rows `256 t … 256 t + 255` of the five arrays. -/
theorem blockLoss_eq (t : Fin cfg0.N) :
    blockLoss m c t = ∑ q ∈ Finset.range 256,
      lossAt (m ((c : Thread nD τ).loc main_arg0)) (m ((c : Thread nD τ).loc main_arg1)) (m ((c : Thread nD τ).loc main_arg3)) (m ((c : Thread nD τ).loc main_arg4)) (m ((c : Thread nD τ).loc main_arg5)) (256 * t.val + q) := by
  have hN : t.val < 32 := lt_of_lt_of_eq t.isLt (show cfg0.N = 32 from N_0)
  rw [Finset.sum_range (fun q => lossAt (m ((c : Thread nD τ).loc main_arg0)) (m ((c : Thread nD τ).loc main_arg1)) (m ((c : Thread nD τ).loc main_arg3)) (m ((c : Thread nD τ).loc main_arg4)) (m ((c : Thread nD τ).loc main_arg5)) (256 * t.val + q))]
  unfold blockLoss blockLossOf
  refine Finset.sum_congr rfl fun q _ => ?_
  have h : 256 * t.val + q.val < 8192 := by have := q.isLt; omega
  unfold lossAt
  rw [dif_pos h]
  have e0 : row (iblk m c 0 t) q = fun d => (m ((c : Thread nD τ).loc main_arg0)) (ix2 (⟨256 * t.val + q.val, h⟩ : Fin 8192) d) :=
    funext fun d => blk0_apply m c t q d h
  have e1 : (fun d => mean8 (fun k => (iblk m c 1 t : Vec Ideal S8x256x512 .f32) (ix3 k q d)))
      = fun d => mean8 (fun k => (m ((c : Thread nD τ).loc main_arg1)) (ix3 k (⟨256 * t.val + q.val, h⟩ : Fin 8192) d)) :=
    funext fun d => congrArg mean8 (funext fun k => blk1_apply m c t k q d h)
  have e2 : (fun d => mean8 (fun k => (iblk m c 2 t : Vec Ideal S8x256x512 .f32) (ix3 k q d)))
      = fun d => mean8 (fun k => (m ((c : Thread nD τ).loc main_arg3)) (ix3 k (⟨256 * t.val + q.val, h⟩ : Fin 8192) d)) :=
    funext fun d => congrArg mean8 (funext fun k => blk2_apply m c t k q d h)
  have e3 : row (iblk m c 3 t) q = fun d => (m ((c : Thread nD τ).loc main_arg4)) (ix2 (⟨256 * t.val + q.val, h⟩ : Fin 8192) d) :=
    funext fun d => blk3_apply m c t q d h
  have e4 : row (iblk m c 4 t) q = fun d => (m ((c : Thread nD τ).loc main_arg5)) (ix2 (⟨256 * t.val + q.val, h⟩ : Fin 8192) d) :=
    funext fun d => blk4_apply m c t q d h
  rw [e0, e1, e2, e3, e4]

/-- So, as a function of every natural number, the block losses of the 32 points are the 8192 row losses taken
    256 at a time. -/
theorem blockLossN_eq (n : ℕ) (hn : n < 32) :
    blockLossN m c n = ∑ q ∈ Finset.range 256,
      lossAt (m ((c : Thread nD τ).loc main_arg0)) (m ((c : Thread nD τ).loc main_arg1)) (m ((c : Thread nD τ).loc main_arg3)) (m ((c : Thread nD τ).loc main_arg4)) (m ((c : Thread nD τ).loc main_arg5)) (256 * n + q) := by
  have h : n < cfg0.N := lt_of_lt_of_eq hn (show cfg0.N = 32 from N_0).symm
  unfold blockLossN
  rw [dif_pos h]
  exact blockLoss_eq m c ⟨n, h⟩

end Cert.KernelIdeal.BlockRead

end
-- ==== Proof.KernelValue.lean ====
/-
  The kernel's result, as a function of the argument arrays.

  The output array (16 × 128) is written back twice, after each core's last point: rows 0–7 hold, at every position,
  the first core's sum of block losses, rows 8–15 the second core's. The host lines after the region take entry
  (0, 0) and entry (8, 0), add them and divide by the float `8192.0`. The two cores' sums are the block losses of
  points 0–15 and 16–31; the 32 block losses are the 8192 row losses taken 256 at a time; so the result is the sum
  of all row losses over `8192.0` — only the grouping of a finite sum of extended reals has changed, which needs
  commutativity and associativity of addition and nothing of the inputs.
-/
import proofs.«166223_j83141976916016_2_alg».proof.Proof.BlockRead
import Idealize.ShloMosaic.Lib.StableHlo.Run

set_option maxRecDepth 16384
noncomputable section

open Idealize.ShloMosaic Idealize.ShloMosaic.TcCoe Idealize.SL.Sem

namespace Cert.KernelIdeal.KernelValue

open Cert.KernelIdeal Cert.KernelIdeal.Gen Cert.KernelIdeal.StepValue Cert.KernelIdeal.Accum Cert.KernelIdeal.BlockRead
open Cert.RowLoss Cert.BlockSum Idealize.ShloMosaic.ValueIdx
open Idealize.ShloMosaic.Pipeline (Dat)

variable (m : (ℓ : Loc nD τ sig) → Buf (Elt Ideal) ℓ) (ρ : Dev nD → PrngReg) (c : Dev nD)

/-- Core `k`'s sum: the block losses of its sixteen points. -/
def coreSum (k : ℕ) : EReal := ∑ q ∈ Finset.range 16, blockLossN m c (16 * k + q)

/-- What the output array ends holding: at row `i₀`, every column, the sum of core `i₀ / 8`. -/
def outArr : S16x128.Idx → EReal := fun i => coreSum m c ((i 0).val / 8)

/-- After a core's last point the scratch entry is that core's sum. -/
theorem runSum_last (t : Fin cfg0.N) (h15 : t.val % 16 = 15) :
    runSum 16 (blockLossN m c) t.val = coreSum m c (t.val / 16) := by
  have ht : t.val = 16 * (t.val / 16) + 15 := by omega
  exact (congrArg (runSum 16 (blockLossN m c)) ht).trans (runSum_period 16 _ (t.val / 16) 15 (by decide))

/-- WHAT A WRITE-BACK WRITES is its block of `outArr`. -/
theorem flushed_eq (t : Fin cfg0.N) (hf : (cfg0.win 5).flush t = true) :
    (dats m 0 c).flushed 5 t = ((cfg0.win 5).blk t).view.read (Elt Ideal) (outArr m c) := by
  have h15 : t.val % 16 = 15 := (flush0_5 t).mp hf
  show (cfg0.win 5).cut (grid0.coords t) ((dats m 0 c).after 5 t) = _
  rw [after0_5]
  funext y
  show (outsAt0 m c t.val t.isLt).1 y = outArr m c (((cfg0.win 5).blk t).view.emb y)
  rw [out_at_C m c t (by omega) h15 y, scratch_eq m c t.val t.isLt, runSum_last m c t h15]
  unfold outArr
  have e0 : ((((cfg0.win 5).blk t).view.emb y) 0).val = win0_5.index t 0 * 8 + 1 * (y 0).val := rfl
  have hy : (y 0).val < 8 := (y 0).isLt
  rw [e0, (index_facts t).2.2.2.2.2.1]
  congr 1
  omega

/-- An index of the output array is in point `t`'s block iff each coordinate is in the block's range. -/
theorem mem_blk (t : Fin cfg0.N) (i : S16x128.Idx) :
    i ∈ ((cfg0.win 5).blk t).view.set ↔ ∀ a : Fin 2, win0_5.index t a * S8x128.size a ≤ (i a).val ∧ (i a).val < win0_5.index t a * S8x128.size a + S8x128.size a := by
  show i ∈ ((View.whole main_v0).slice (win0_5.rect t)).set ↔ _
  rw [View.set_slice_whole, Rect.mem_set_unit]
  exact Iff.rfl

/-- THE OUTPUT ARRAY after the run: the two write-backs cover it. -/
theorem final : (dats m 0 c).arrAt 5 cfg0.N = outArr m c :=
  (dats m 0 c).arrAt_eq_of_cover 5 (outArr m c) (flushed_eq m c) fun i => by
    have hi0 : (i 0).val < 16 := (i 0).isLt
    have hi1 : (i 1).val < 128 := (i 1).isLt
    have hN : cfg0.N = 32 := N_0
    refine ⟨⟨16 * ((i 0).val / 8) + 15, by rw [hN]; omega⟩, (flush0_5 _).mpr (by show (16 * ((i 0).val / 8) + 15) % 16 = 15; omega), ?_⟩
    rw [mem_blk]
    intro a
    obtain ⟨-, -, -, -, -, f0, f1⟩ := index_facts (⟨16 * ((i 0).val / 8) + 15, by rw [hN]; omega⟩ : Fin cfg0.N)
    match a with
    | ⟨0, _⟩ =>
      show win0_5.index _ 0 * 8 ≤ (i 0).val ∧ (i 0).val < win0_5.index _ 0 * 8 + 8
      rw [f0]; dsimp only; omega
    | ⟨1, _⟩ =>
      show win0_5.index _ 1 * 128 ≤ (i 1).val ∧ (i 1).val < win0_5.index _ 1 * 128 + 128
      rw [f1]; omega

/-- A scalar cast to `[1]` reads the scalar. -/
theorem cast_S_S1 (x : S_.Idx → EReal) (i : S1.Idx) : shapeCast S1 x shapeCasts_S_S1 i = x ix0 :=
  shapeCast_apply x shapeCasts_S_S1 i ix0 (by
    have h0 : (S_.rowMajor ix0).val < 1 := lt_of_lt_of_eq (S_.rowMajor ix0).isLt (by decide)
    have h1 : (S1.rowMajor i).val < 1 := lt_of_lt_of_eq (S1.rowMajor i).isLt (by decide)
    omega)

/-- A `[1, 1]` array cast to a scalar reads its one entry. -/
theorem cast_S1x1_S_ (x : S1x1.Idx → EReal) (i : S_.Idx) :
    shapeCast S_ x shapeCasts_S1x1_S_ i = x (ix2 (0 : Fin 1) (0 : Fin 1)) :=
  shapeCast_apply x shapeCasts_S1x1_S_ i (ix2 (0 : Fin 1) (0 : Fin 1)) (by
    have h0 : (S_.rowMajor i).val < 1 := lt_of_lt_of_eq (S_.rowMajor i).isLt (by decide)
    have h1 : (S1x1.rowMajor (ix2 (0 : Fin 1) (0 : Fin 1))).val < 1 :=
      lt_of_lt_of_eq (S1x1.rowMajor (ix2 (0 : Fin 1) (0 : Fin 1))).isLt (by decide)
    omega)

/-- The host lines after the region: entry (0, 0) plus entry (8, 0) of the output array, over `8192.0`. -/
theorem tail_eq : Pipeline.afterTail₀ cfgs (dats m) 0 (V0 m) [hostOps1] c main_v7
    = fun _ => Ideal.div (coreSum m c 0 + coreSum m c 1) (Ideal.ofBits .f32 0x46000000#32) := by
  unfold Pipeline.afterTail₀
  show StableHlo.after hostOps1 _ (Proc.devRef .tc main_v7) = _
  after_results
  have hw : Pipeline.withArrays (cfgs 0).spec c (V0 m c) (fun w => (dats m 0 c).arrAt w (cfgs 0).N) (Proc.tc.devRef main_v0)
      = outArr m c :=
    (Pipeline.withArrays_arr spec0 launch0.win.arr_inj c _ _ 5).trans (final m c)
  rw [hw]
  funext i
  show shapeCast S1 (Host.divf (F := Ideal)
      (addf (shapeCast S_ (extractStridedSlice S1x1 ![0, 0] (outArr m c) slices_S16x128_S1x1_0_0) shapeCasts_S1x1_S_)
        (shapeCast S_ (extractStridedSlice S1x1 ![8, 0] (outArr m c) slices_S16x128_S1x1_8_0) shapeCasts_S1x1_S_))
      (constant (F := Ideal) S_ .f32 0x46000000#32)) shapeCasts_S_S1 i = _
  rw [cast_S_S1]
  show Ideal.div (shapeCast S_ (extractStridedSlice S1x1 ![0, 0] (outArr m c) slices_S16x128_S1x1_0_0) shapeCasts_S1x1_S_ ix0
      + shapeCast S_ (extractStridedSlice S1x1 ![8, 0] (outArr m c) slices_S16x128_S1x1_8_0) shapeCasts_S1x1_S_ ix0)
    (Ideal.ofBits .f32 0x46000000#32) = _
  rw [cast_S1x1_S_, cast_S1x1_S_,
    extractStridedSlice_apply ![0, 0] (outArr m c) slices_S16x128_S1x1_0_0 (ix2 (0 : Fin 1) (0 : Fin 1))
      (ix2 (0 : Fin 16) (0 : Fin 128)) (fun a => by match a with | ⟨0, _⟩ => rfl | ⟨1, _⟩ => rfl),
    extractStridedSlice_apply ![8, 0] (outArr m c) slices_S16x128_S1x1_8_0 (ix2 (0 : Fin 1) (0 : Fin 1))
      (ix2 (8 : Fin 16) (0 : Fin 128)) (fun a => by match a with | ⟨0, _⟩ => rfl | ⟨1, _⟩ => rfl)]
  rfl

/-- The two cores' sums together are the sum of all 8192 row losses: 2 × 16 block losses, each 256 row losses. -/
theorem sum_cores : coreSum m c 0 + coreSum m c 1 = total (m ((c : Thread nD τ).loc main_arg0)) (m ((c : Thread nD τ).loc main_arg1)) (m ((c : Thread nD τ).loc main_arg3)) (m ((c : Thread nD τ).loc main_arg4)) (m ((c : Thread nD τ).loc main_arg5)) := by
  have h2 : coreSum m c 0 + coreSum m c 1
      = ∑ t ∈ Finset.range 2, ∑ q ∈ Finset.range 16, blockLossN m c (16 * t + q) := by
    rw [Finset.sum_range_succ, Finset.sum_range_one]; rfl
  rw [h2, sum_blocks 2 16 (blockLossN m c),
    Finset.sum_congr rfl (fun n hn => blockLossN_eq m c n (Finset.mem_range.mp hn)),
    sum_blocks 32 256]
  rfl

/-- THE RUN, READ: the result at the total of the row losses over `8192.0`, the arguments unchanged. -/
theorem run : θ_run defs (onTc (τ := τ) (main (F := Ideal))) ⟨m, fun _ => 0, ρ⟩ fun r => ∀ c : Dev nD,
      r.2.mem ((c : Thread nD τ).loc main_v7) = (fun _ => Ideal.div (total (m ((c : Thread nD τ).loc main_arg0)) (m ((c : Thread nD τ).loc main_arg1)) (m ((c : Thread nD τ).loc main_arg3)) (m ((c : Thread nD τ).loc main_arg4)) (m ((c : Thread nD τ).loc main_arg5))) (Ideal.ofBits .f32 0x46000000#32))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c =>
    ⟨((h c).2 main_v7 (Pipeline.mem_restRefs_of main_v7 (by decide) (by decide))).trans
        ((tail_eq m c).trans (by rw [sum_cores])),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).1 2).trans (((dats m 0 c).arrAt_in 2 rfl _).trans ((A_eq m c 2).trans (V_main_arg3 m c))),
      ((h c).1 3).trans (((dats m 0 c).arrAt_in 3 rfl _).trans ((A_eq m c 3).trans (V_main_arg4 m c))),
      ((h c).1 4).trans (((dats m 0 c).arrAt_in 4 rfl _).trans ((A_eq m c 4).trans (V_main_arg5 m c)))⟩)
    (run_main m ρ)

end Cert.KernelIdeal.KernelValue

end
-- ==== Proof.RefRow.lean ====
/-
  The reference, read at a row.

  The reference's stage before its final sum (the negated logarithm, one entry per row of the batch) is, at row
  `r`, `RowLoss.rowLoss` of row `r` of the base array, of the two mean rows and of row `r` of the two negative
  arrays: its operations read one at a time at an index, its quotient by `8.0` read as the mean, the initial
  zero of each of its sums dropped. Its result is then the sum of the 8192 row losses over the float `8192.0`.
-/
import proofs.«166223_j83141976916016_2_alg».proof.Proof.Gen.ReferenceIdeal.Read
import proofs.«166223_j83141976916016_2_alg».proof.Proof.RowLoss
import proofs.«166223_j83141976916016_2_alg».proof.Proof.LibBlockSum
import Idealize.ShloMosaic.Lib.ValueIdx
import Idealize.ShloMosaic.PureOps.Ideal.Laws

set_option maxRecDepth 16384
noncomputable section

open Idealize.ShloMosaic Idealize.ShloMosaic.TcCoe Idealize.SL.Sem

namespace Cert.ReferenceIdeal.RefRow

open Cert.ReferenceIdeal Cert.ReferenceIdeal.Read Cert.RowLoss Cert.BlockSum Idealize.ShloMosaic.ValueIdx

/-- Row `r` of an 8192 × 512 array. -/
def rowR (v : S8192x512.Idx → EReal) (r : Fin 8192) : Fin 512 → EReal := fun d => v (ix2 r d)

theorem neglog_apply (x0 : (⟨S8192x512, .f32⟩ : BufTy).Contents (Elt Ideal)) (x1 x3 : (⟨S8x8192x512, .f32⟩ : BufTy).Contents (Elt Ideal))
    (x4 x5 : (⟨S8192x512, .f32⟩ : BufTy).Contents (Elt Ideal)) (r : Fin 8192) :
    val_main_v60 (F := Ideal) x0 x1 x3 x4 x5 (ix1 r)
      = rowLoss epsW oneW (rowR x0 r) (fun d => mean8 (fun k => x1 (ix3 k r d))) (fun d => mean8 (fun k => x3 (ix3 k r d)))
          (rowR x4 r) (rowR x5 r) := by
  simp only [val_main_cst_apply, val_main_v0_apply, val_main_cst_0_apply, val_main_v1_apply, val_main_v2_apply, val_main_cst_1_apply, val_main_v3_apply, val_main_cst_2_apply, val_main_v4_apply, val_main_v5_apply, val_main_cst_3_apply, val_main_v6_apply, val_main_cst_4_apply, val_main_v7_apply, val_main_v8_apply, val_main_v9_apply, val_main_cst_5_apply, val_main_v10_apply, val_main_call0_v0_apply, val_main_call0_cst_apply, val_main_call0_v1_apply, val_main_v11_apply, val_main_call1_v0_apply, val_main_call1_cst_apply, val_main_call1_v1_apply, val_main_v12_apply, val_main_v13_apply, val_main_cst_6_apply, val_main_v14_apply, val_main_v15_apply, val_main_v16_apply, val_main_cst_7_apply, val_main_v17_apply, val_main_v18_apply, val_main_v19_apply, val_main_v20_apply, val_main_cst_8_apply, val_main_v21_apply, val_main_call2_v0_apply, val_main_call2_cst_apply, val_main_call2_v1_apply, val_main_v22_apply, val_main_call3_v0_apply, val_main_call3_cst_apply, val_main_call3_v1_apply, val_main_v23_apply, val_main_v24_apply, val_main_cst_9_apply, val_main_v25_apply, val_main_v26_apply, val_main_v27_apply, val_main_cst_10_apply, val_main_v28_apply, val_main_v29_apply, val_main_v30_apply, val_main_v31_apply, val_main_cst_11_apply, val_main_v32_apply, val_main_call4_v0_apply, val_main_call4_cst_apply, val_main_call4_v1_apply, val_main_v33_apply, val_main_call5_v0_apply, val_main_call5_cst_apply, val_main_call5_v1_apply, val_main_v34_apply, val_main_v35_apply, val_main_cst_12_apply, val_main_v36_apply, val_main_v37_apply, val_main_v38_apply, val_main_cst_13_apply, val_main_v39_apply, val_main_v40_apply, val_main_v41_apply, val_main_v42_apply, val_main_cst_14_apply, val_main_v43_apply, val_main_call6_v0_apply, val_main_call6_cst_apply, val_main_call6_v1_apply, val_main_v44_apply, val_main_call7_v0_apply, val_main_call7_cst_apply, val_main_call7_v1_apply, val_main_v45_apply, val_main_v46_apply, val_main_cst_15_apply, val_main_v47_apply, val_main_v48_apply, val_main_v49_apply, val_main_cst_16_apply, val_main_v50_apply, val_main_v51_apply, val_main_v52_apply, val_main_v53_apply, val_main_v54_apply, val_main_v55_apply, val_main_v56_apply, val_main_cst_17_apply, val_main_v57_apply, val_main_v58_apply, val_main_v59_apply, val_main_v60_apply,
    Ideal.hostNegf_def, Ideal.negf_def, Ideal.hostUnary_log_def, Ideal.hostUnary_exp_def, Ideal.hostUnary_sqrt_def,
    Ideal.hostDivf_def, Ideal.addf_def, Ideal.mulf_def, Ideal.maximumf_def, Ideal.ofBits_def, mean8_of_div]
  simp only [Ideal.ofBits_zero_f32, zero_add]
  have er0 : ∀ k : Fin 512, idx_main_v10 (ix1 r) k = ix2 r k := fun k =>
    funext fun a => Fin.ext (by match a with | ⟨0, _⟩ => rfl | ⟨1, _⟩ => rfl)
  have er1 : ∀ k : Fin 512, idx_main_v21 (ix1 r) k = ix2 r k := fun k =>
    funext fun a => Fin.ext (by match a with | ⟨0, _⟩ => rfl | ⟨1, _⟩ => rfl)
  have er2 : ∀ k : Fin 512, idx_main_v32 (ix1 r) k = ix2 r k := fun k =>
    funext fun a => Fin.ext (by match a with | ⟨0, _⟩ => rfl | ⟨1, _⟩ => rfl)
  have er3 : ∀ k : Fin 512, idx_main_v43 (ix1 r) k = ix2 r k := fun k =>
    funext fun a => Fin.ext (by match a with | ⟨0, _⟩ => rfl | ⟨1, _⟩ => rfl)
  have er4 : ∀ k : Fin 512, idx_main_call0_v1 (ix1 r) k = ix2 r k := fun k =>
    funext fun a => Fin.ext (by match a with | ⟨0, _⟩ => rfl | ⟨1, _⟩ => rfl)
  have er5 : ∀ k : Fin 512, idx_main_call1_v1 (ix1 r) k = ix2 r k := fun k =>
    funext fun a => Fin.ext (by match a with | ⟨0, _⟩ => rfl | ⟨1, _⟩ => rfl)
  have er6 : ∀ k : Fin 512, idx_main_call2_v1 (ix1 r) k = ix2 r k := fun k =>
    funext fun a => Fin.ext (by match a with | ⟨0, _⟩ => rfl | ⟨1, _⟩ => rfl)
  have er7 : ∀ k : Fin 512, idx_main_call3_v1 (ix1 r) k = ix2 r k := fun k =>
    funext fun a => Fin.ext (by match a with | ⟨0, _⟩ => rfl | ⟨1, _⟩ => rfl)
  have er8 : ∀ k : Fin 512, idx_main_call4_v1 (ix1 r) k = ix2 r k := fun k =>
    funext fun a => Fin.ext (by match a with | ⟨0, _⟩ => rfl | ⟨1, _⟩ => rfl)
  have er9 : ∀ k : Fin 512, idx_main_call5_v1 (ix1 r) k = ix2 r k := fun k =>
    funext fun a => Fin.ext (by match a with | ⟨0, _⟩ => rfl | ⟨1, _⟩ => rfl)
  have er10 : ∀ k : Fin 512, idx_main_call6_v1 (ix1 r) k = ix2 r k := fun k =>
    funext fun a => Fin.ext (by match a with | ⟨0, _⟩ => rfl | ⟨1, _⟩ => rfl)
  have er11 : ∀ k : Fin 512, idx_main_call7_v1 (ix1 r) k = ix2 r k := fun k =>
    funext fun a => Fin.ext (by match a with | ⟨0, _⟩ => rfl | ⟨1, _⟩ => rfl)
  have es0 : ∀ (d : Fin 512) (k : Fin 8), idx_main_v0 (ix2 r d) k = ix3 k r d := fun d k =>
    funext fun a => Fin.ext (by match a with | ⟨0, _⟩ => rfl | ⟨1, _⟩ => rfl | ⟨2, _⟩ => rfl)
  have es1 : ∀ (d : Fin 512) (k : Fin 8), idx_main_v6 (ix2 r d) k = ix3 k r d := fun d k =>
    funext fun a => Fin.ext (by match a with | ⟨0, _⟩ => rfl | ⟨1, _⟩ => rfl | ⟨2, _⟩ => rfl)
  simp only [er0, er1, er2, er3, er4, er5, er6, er7, er8, er9, er10, er11, es0, es1]
  rfl

/-- THE REFERENCE'S RESULT: the sum of the 8192 row losses over the float `8192.0`, at its one index. -/
theorem result_eq (x0 : (⟨S8192x512, .f32⟩ : BufTy).Contents (Elt Ideal)) (x1 x3 : (⟨S8x8192x512, .f32⟩ : BufTy).Contents (Elt Ideal))
    (x4 x5 : (⟨S8192x512, .f32⟩ : BufTy).Contents (Elt Ideal)) :
    val_main_v64 (F := Ideal) x0 x1 x3 x4 x5
      = fun _ => Ideal.div (total x0 x1 x3 x4 x5) (Ideal.ofBits .f32 0x46000000#32) := by
  funext i
  rw [val_main_v64_apply, val_main_v62_apply, val_main_v63_apply, val_main_v61_apply, val_main_cst_18_apply,
    val_main_cst_19_apply]
  simp only [Ideal.hostDivf_def, Ideal.ofBits_def, Ideal.ofBits_zero_f32, zero_add]
  congr 1
  rw [sum_idx1, total, Finset.sum_range]
  refine Finset.sum_congr rfl fun r _ => ?_
  rw [neglog_apply]
  unfold lossAt
  rw [dif_pos r.isLt]
  rfl

end Cert.ReferenceIdeal.RefRow

end
-- ==== Proof.lean ====
/-
  The kernel computes a contrastive loss over 8192 rows of 512 entries and so does the reference; at the ideal
  instance (floats are extended reals, operations exact) they compute the same extended real.

  For each row, with `b` the base row, `p` and `c` the means over eight slices of two stacked arrays, and `n₁`, `n₂`
  two negative rows, the row loss is `-(log (pos / (neg + pos) + ε))`, where `pos = e^{cos(b,p)} + e^{cos(b,c)}`,
  `neg = e^{cos(b,n₁)} + e^{cos(b,n₂)}` and `cos(b,v) = ⟨b,v⟩ / max (‖b‖‖v‖) ε` (`Proof/RowLoss.lean`). The result is the
  sum of the 8192 row losses over `8192`.

  The reference computes each mean as a sum over a quotient by `8`, negates the logarithm, and sums all rows at once
  (`Proof/RefRow.lean`, over the generated run and its read-at-an-index lemmas). The kernel computes each mean as
  eight additions and a product with `0.125`, subtracts the logarithm from zero, and sums in three levels: 256 rows
  in a block, sixteen blocks accumulated in a one-entry scratch per core, the two cores' sums added by the host
  (`Proof/Pieces.lean`, `StepValue.lean`, `Accum.lean`, `BlockRead.lean`, `KernelValue.lean`, over the generated
  frame). The two means agree on every extended real because `0.125` is exactly `1/8` and a quotient by a nonzero
  real is the product with its inverse; the sums agree because addition of extended reals is commutative and
  associative. Neither step uses that the inputs are finite.

  The three frames are the generated ones (the reference's from its generated run); the ideal pass rewrote nothing,
  so there is nothing to preserve.
-/
import proofs.«166223_j83141976916016_2_alg».proof.Defs
import proofs.«166223_j83141976916016_2_alg».proof.Proof.Gen.Kernel
import proofs.«166223_j83141976916016_2_alg».proof.Proof.Gen.Kernel.Skeleton
import proofs.«166223_j83141976916016_2_alg».proof.Proof.Gen.Kernel.Launch
import proofs.«166223_j83141976916016_2_alg».proof.Proof.Gen.Kernel.Points
import proofs.«166223_j83141976916016_2_alg».proof.Proof.Gen.Kernel.Frame
import proofs.«166223_j83141976916016_2_alg».proof.Proof.Gen.KernelIdeal
import proofs.«166223_j83141976916016_2_alg».proof.Proof.Gen.KernelIdeal.Skeleton
import proofs.«166223_j83141976916016_2_alg».proof.Proof.Gen.KernelIdeal.Launch
import proofs.«166223_j83141976916016_2_alg».proof.Proof.Gen.KernelIdeal.Points
import proofs.«166223_j83141976916016_2_alg».proof.Proof.Gen.KernelIdeal.Frame
import proofs.«166223_j83141976916016_2_alg».proof.Proof.Gen.ReferenceIdeal
import proofs.«166223_j83141976916016_2_alg».proof.Proof.Gen.ReferenceIdeal.Run
import proofs.«166223_j83141976916016_2_alg».proof.Proof.Gen.ReferenceIdeal.Read
import proofs.«166223_j83141976916016_2_alg».proof.Proof.Gen.Pre_finite_inputs
import proofs.«166223_j83141976916016_2_alg».proof.Proof.KernelValue
import proofs.«166223_j83141976916016_2_alg».proof.Proof.RefRow
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end at the total of the row losses of the (agreeing) argument arrays over `8192.0`. -/
theorem algebraic : Cert.algebraic_KernelIdeal_ReferenceIdeal := by
  intro m ρ m' ρ' _ hagree
  refine ⟨fun c => (fun _ => Ideal.div (Cert.RowLoss.total (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)))
      (Ideal.ofBits .f32 0x46000000#32)), Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v64_eq, Cert.ReferenceIdeal.RefRow.result_eq, (hagree c).1, (hagree c).2.1,
    (hagree c).2.2.2.1, (hagree c).2.2.2.2.1, (hagree c).2.2.2.2.2]
  rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
